-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000x16 : Shape := ⟨2, ![3200000, 16]⟩
abbrev S16x16 : Shape := ⟨2, ![16, 16]⟩
abbrev S16 : Shape := ⟨1, ![16]⟩
abbrev S128x16 : Shape := ⟨2, ![128, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000x16 : S_.BroadcastsInDim S3200000x16 (![] : Fin 0 → Fin S3200000x16.rank)
  reducesTo_S3200000x16_S_d0_1 : S3200000x16.ReducesTo [0, 1] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S128x16 : S_.BroadcastsInDim S128x16 (![] : Fin 0 → Fin S128x16.rank)
  reducesTo_S128x16_S_d0_1 : S128x16.ReducesTo [0, 1] S_

variable [Facts]

def fn_part2 {F : FTy → Type} [FloatOps F] (main_arg8 : FVec F S16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg5 : FVec F S128x16 .f32) (main_arg6 : FVec F S16 .f32) (main_arg7 : FVec F S16x16 .f32) (main_arg8 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S128x16 .f32 := Host.absf main_arg5
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg7
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x3200000 32) (main_arg2 : FVec F S3200000x16 .f32) (main_arg3 : FVec F S16x16 .f32) (main_arg4 : FVec F S16 .f32) (main_arg5 : FVec F S128x16 .f32) (main_arg6 : FVec F S16 .f32) (main_arg7 : FVec F S16x16 .f32) (main_arg8 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000x16 .f32 := Host.absf main_arg2
  let main_cst_0 : FVec F S_ .f32 := constant S_ .f32 0x7F800000#32
  let main_v5 : FVec F S3200000x16 .f32 := broadcastInDim S3200000x16 ![] bcast_S_S3200000x16 main_cst_0
  let main_v6 : IVec S3200000x16 1 := cmpf .olt main_v4 main_v5
  let main_c_1 : IVec S_ 1 := constantI S_ 1 1#1
  let main_v7 : IVec S_ 1 := (fun x v => Host.reduce IntOp.andi x v reducesTo_S3200000x16_S_d0_1 h_S_) main_v6 main_c_1
  let main_v8 : IVec S_ 1 := andi main_v3 main_v7
  let main_v9 : FVec F S16x16 .f32 := Host.absf main_arg3
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_v13 main_v16
-- ==== Kernel.lean ====
abbrev S100000x128 : Shape := ⟨2, ![100000, 128]⟩
abbrev S2x3200000 : Shape := ⟨2, ![2, 3200000]⟩
abbrev S3200000x16 : Shape := ⟨2, ![3200000, 16]⟩
abbrev S16x16 : Shape := ⟨2, ![16, 16]⟩
abbrev S16 : Shape := ⟨1, ![16]⟩
abbrev S128x16 : Shape := ⟨2, ![128, 16]⟩
abbrev S1x3200000 : Shape := ⟨2, ![1, 3200000]⟩
abbrev S3200000 : Shape := ⟨1, ![3200000]⟩
abbrev S1x16 : Shape := ⟨2, ![1, 16]⟩
abbrev S8000x16 : Shape := ⟨2, ![8000, 16]⟩
abbrev S_ : Shape := ⟨0, ![]⟩
abbrev S100000x16 : Shape := ⟨2, ![100000, 16]⟩
abbrev S3200000x1 : Shape := ⟨2, ![3200000, 1]⟩
abbrev S10000x16 : Shape := ⟨2, ![10000, 16]⟩
abbrev S10000x128 : Shape := ⟨2, ![10000, 128]⟩
abbrev S4000x16 : Shape := ⟨2, ![4000, 16]⟩

abbrev nBuf : Space → Nat
  | .hbm => 73
  | .vmem => 60
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000x16, .f32⟩
  | .hbm, ⟨3, _⟩ => ⟨S16x16, .f32⟩
  | .hbm, ⟨4, _⟩ => ⟨S16, .f32⟩
  | .hbm, ⟨5, _⟩ => ⟨S128x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S1x16, .f32⟩
  | .hbm, ⟨14, _⟩ => ⟨S3200000x16, .f32⟩
  | .hbm, ⟨15, _⟩ => ⟨S_, .f32⟩
  | .hbm, ⟨16, _⟩ => ⟨S100000x16, .f32⟩
  | .hbm, ⟨17, _⟩ => ⟨S3200000x1, .i32⟩
  | .hbm, ⟨18, _⟩ => ⟨S100000x16, .f32⟩
  | .hbm, ⟨19, _⟩ => ⟨S100000x16, .f32⟩
  | .hbm, ⟨20, _⟩ => ⟨S100000x16, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000x16, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000x16, .f32⟩
  | .hbm, ⟨39, _⟩ => ⟨S100000x16, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000x16, .f32⟩
  | .hbm, ⟨49, _⟩ => ⟨S3200000x16, .f32⟩
  | .hbm, ⟨50, _⟩ => ⟨S_, .f32⟩
  | .hbm, ⟨51, _⟩ => ⟨S100000x16, .f32⟩
  | .hbm, ⟨52, _⟩ => ⟨S3200000x1, .i32⟩
  | .hbm, ⟨53, _⟩ => ⟨S100000x16, .f32⟩
  | .hbm, ⟨54, _⟩ => ⟨S1x16, .f32⟩
  | .hbm, ⟨55, _⟩ => ⟨S100000x16, .f32⟩
  | .hbm, ⟨56, _⟩ => ⟨S100000x16, .f32⟩
  | .hbm, ⟨57, _⟩ => ⟨S_, .i32⟩
  | .hbm, ⟨58, _⟩ => ⟨S3200000, .i32⟩
  | .hbm, ⟨59, _⟩ => ⟨S3200000, .i1⟩
  | .hbm, ⟨60, _⟩ => ⟨S_, .i32⟩
  | .hbm, ⟨61, _⟩ => ⟨S3200000, .i32⟩
  | .hbm, ⟨62, _⟩ => ⟨S3200000, .i32⟩
  | .hbm, ⟨63, _⟩ => ⟨S3200000, .i32⟩
  | .hbm, ⟨64, _⟩ => ⟨S3200000x1, .i32⟩
  | .hbm, ⟨65, _⟩ => ⟨S3200000x16, .f32⟩
  | .hbm, ⟨66, _⟩ => ⟨S3200000x16, .f32⟩
  | .hbm, ⟨67, _⟩ => ⟨S_, .f32⟩
  | .hbm, ⟨68, _⟩ => ⟨S100000x16, .f32⟩
  | .hbm, ⟨69, _⟩ => ⟨S3200000x1, .i32⟩
  | .hbm, ⟨70, _⟩ => ⟨S100000x16, .f32⟩
  | .hbm, ⟨71, _⟩ => ⟨S1x16, .f32⟩
  | .hbm, ⟨72, _⟩ => ⟨S100000x16, .f32⟩
  | .local _ .vmem, ⟨0, _⟩ => ⟨S8000x16, .f32⟩
  | .local _ .vmem, ⟨1, _⟩ => ⟨S8000x16, .f32⟩
  | .local _ .vmem, ⟨2, _⟩ => ⟨S16x16, .f32⟩
  | .local _ .vmem, ⟨3, _⟩ => ⟨S1x16, .f32⟩
  | .local _ .vmem, ⟨4, _⟩ => ⟨S8000x16, .f32⟩
  | .local _ .vmem, ⟨5, _⟩ => ⟨S8000x16, .f32⟩
  | .local _ .vmem, ⟨6, _⟩ => ⟨S10000x16, .f32⟩
  | .local _ .vmem, ⟨7, _⟩ => ⟨S10000x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x128, .f32⟩
  | .local _ .vmem, ⟨13, _⟩ => ⟨S10000x128, .f32⟩
  | .local _ .vmem, ⟨14, _⟩ => ⟨S128x16, .f32⟩
  | .local _ .vmem, ⟨15, _⟩ => ⟨S10000x16, .f32⟩
  | .local _ .vmem, ⟨16, _⟩ => ⟨S10000x16, .f32⟩
  | .local _ .vmem, ⟨17, _⟩ => ⟨S4000x16, .f32⟩
  | .local _ .vmem, ⟨18, _⟩ => ⟨S4000x16, .f32⟩
  | .local _ .vmem, ⟨19, _⟩ => ⟨S4000x16, .f32⟩
  | .local _ .vmem, ⟨20, _⟩ => ⟨S4000x16, .f32⟩
  | .local _ .vmem, ⟨21, _⟩ => ⟨S4000x16, .f32⟩
  | .local _ .vmem, ⟨22, _⟩ => ⟨S4000x16, .f32⟩
  | .local _ .vmem, ⟨23, _⟩ => ⟨S4000x16, .f32⟩
  | .local _ .vmem, ⟨24, _⟩ => ⟨S4000x16, .f32⟩
  | .local _ .vmem, ⟨25, _⟩ => ⟨S4000x16, .f32⟩
  | .local _ .vmem, ⟨26, _⟩ => ⟨S4000x16, .f32⟩
  | .local _ .vmem, ⟨27, _⟩ => ⟨S10000x16, .f32⟩
  | .local _ .vmem, ⟨28, _⟩ => ⟨S10000x16, .f32⟩
  | .local _ .vmem, ⟨29, _⟩ => ⟨S10000x16, .f32⟩
  | .local _ .vmem, ⟨30, _⟩ => ⟨S10000x16, .f32⟩
  | .local _ .vmem, ⟨31, _⟩ => ⟨S10000x16, .f32⟩
  | .local _ .vmem, ⟨32, _⟩ => ⟨S10000x16, .f32⟩
  | .local _ .vmem, ⟨33, _⟩ => ⟨S1x16, .f32⟩
  | .local _ .vmem, ⟨34, _⟩ => ⟨S10000x16, .f32⟩
  | .local _ .vmem, ⟨35, _⟩ => ⟨S10000x16, .f32⟩
  | .local _ .vmem, ⟨36, _⟩ => ⟨S10000x16, .f32⟩
  | .local _ .vmem, ⟨37, _⟩ => ⟨S10000x16, .f32⟩
  | .local _ .vmem, ⟨38, _⟩ => ⟨S16x16, .f32⟩
  | .local _ .vmem, ⟨39, _⟩ => ⟨S10000x16, .f32⟩
  | .local _ .vmem, ⟨40, _⟩ => ⟨S10000x16, .f32⟩
  | .local _ .vmem, ⟨41, _⟩ => ⟨S4000x16, .f32⟩
  | .local _ .vmem, ⟨42, _⟩ => ⟨S4000x16, .f32⟩
  | .local _ .vmem, ⟨43, _⟩ => ⟨S4000x16, .f32⟩
  | .local _ .vmem, ⟨44, _⟩ => ⟨S4000x16, .f32⟩
  | .local _ .vmem, ⟨45, _⟩ => ⟨S4000x16, .f32⟩
  | .local _ .vmem, ⟨46, _⟩ => ⟨S4000x16, .f32⟩
  | .local _ .vmem, ⟨47, _⟩ => ⟨S4000x16, .f32⟩
  | .local _ .vmem, ⟨48, _⟩ => ⟨S4000x16, .f32⟩
  | .local _ .vmem, ⟨49, _⟩ => ⟨S4000x16, .f32⟩
  | .local _ .vmem, ⟨50, _⟩ => ⟨S4000x16, .f32⟩
  | .local _ .vmem, ⟨51, _⟩ => ⟨S10000x16, .f32⟩
  | .local _ .vmem, ⟨52, _⟩ => ⟨S10000x16, .f32⟩
  | .local _ .vmem, ⟨53, _⟩ => ⟨S10000x16, .f32⟩
  | .local _ .vmem, ⟨54, _⟩ => ⟨S10000x16, .f32⟩
  | .local _ .vmem, ⟨55, _⟩ => ⟨S10000x16, .f32⟩
  | .local _ .vmem, ⟨56, _⟩ => ⟨S10000x16, .f32⟩
  | .local _ .vmem, ⟨57, _⟩ => ⟨S1x16, .f32⟩
  | .local _ .vmem, ⟨58, _⟩ => ⟨S10000x16, .f32⟩
  | .local _ .vmem, ⟨59, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc3_stg4_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg3_1 : Ref sig .tc := ⟨.vmem, 48, rfl⟩
abbrev cc6_stg4_0 : Ref sig .tc := ⟨.vmem, 49, rfl⟩
abbrev cc6_stg4_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg2_1 : Ref sig .tc := ⟨.vmem, 56, rfl⟩
abbrev cc7_stg3_0 : Ref sig .tc := ⟨.vmem, 57, rfl⟩
abbrev cc7_stg4_0 : Ref sig .tc := ⟨.vmem, 58, rfl⟩
abbrev cc7_stg4_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc3_sem4_0 : DmaSem sig := 25
abbrev cc3_sem4_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem2_1 : DmaSem sig := 46
abbrev cc6_sem3_0 : DmaSem sig := 47
abbrev cc6_sem3_1 : DmaSem sig := 48
abbrev cc6_sem4_0 : DmaSem sig := 49
abbrev cc6_sem4_1 : DmaSem sig := 50
abbrev cc7_sem0_0 : DmaSem sig := 51
abbrev cc7_sem0_1 : DmaSem sig := 52
abbrev cc7_sem1_0 : DmaSem sig := 53
abbrev cc7_sem1_1 : DmaSem sig := 54
abbrev cc7_sem2_0 : DmaSem sig := 55
abbrev cc7_sem2_1 : DmaSem sig := 56
abbrev cc7_sem3_0 : DmaSem sig := 57
abbrev cc7_sem4_0 : DmaSem sig := 58
abbrev cc7_sem4_1 : DmaSem sig := 59

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![800], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x16 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S16x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![800], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x16 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4000x16 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S4000x16 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S4000x16 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x16 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x16 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x16 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S10000x16 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S16_S1x16 : S16.ShapeCasts S1x16
  inb_S8000x16_S8000x16_0_0 : ∀ a, (![0, 0] : Fin 2 → Nat) a + S8000x16.size a ≤ S8000x16.size a
  h_S8000x16 : 0 < S8000x16.numel
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  bcast_S_S100000x16 : S_.BroadcastsInDim S100000x16 (![] : Fin 0 → Fin S100000x16.rank)
  bcast_S3200000_S3200000x1_0 : S3200000.BroadcastsInDim S3200000x1 (![0] : Fin 1 → Fin S3200000x1.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  bcast_S_S3200000 : S_.BroadcastsInDim S3200000 (![] : Fin 0 → Fin S3200000.rank)
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  broadcasts_S1x16_S10000x16 : S1x16.Broadcasts S10000x16
  dot_S8000x16_S16x16_S8000x16_1_0_0_1_n_n_wf : DotDims.WF S8000x16 S16x16 S8000x16 [1] [0] [0] [1] [] []
  scatter_S100000x16_S3200000x1_S3200000x16_1_0_0_1_wf : ScatterDims.WF S100000x16 S3200000x1 S3200000x16 [1] [0] [0] 1
  gather_S100000x16_S3200000x1_S3200000x16_1_0_n_n_0_1_116_wf : GatherDims.WF S100000x16 S3200000x1 S3200000x16 [1] [0] [] [0] [] 1 ![1, 16]
  dot_S10000x128_S128x16_S10000x16_1_0_0_1_n_n_wf : DotDims.WF S10000x128 S128x16 S10000x16 [1] [0] [0] [1] [] []
  dot_S10000x16_S16x16_S10000x16_1_0_0_1_n_n_wf : DotDims.WF S10000x16 S16x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x16.size a ≤ S3200000x16.size a
  hwx0_0 : ∀ i : grid0.Coords, EltTy.bits .f32 = 32 ∨ (Rect.block (s := S3200000x16) S8000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x16.size a ≤ S3200000x16.size a
  hwx0_3 : ∀ i : grid0.Coords, EltTy.bits .f32 = 32 ∨ (Rect.block (s := S3200000x16) S8000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x16.size a ≤ S128x16.size a
  hwx2_1 : ∀ i : grid2.Coords, EltTy.bits .f32 = 32 ∨ (Rect.block (s := S128x16) S128x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x16.size a ≤ S3200000x16.size a
  hwx3_0 : ∀ i : grid3.Coords, EltTy.bits .f32 = 32 ∨ (Rect.block (s := S3200000x16) S4000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x16.size a ≤ S3200000x16.size a
  hwx3_1 : ∀ i : grid3.Coords, EltTy.bits .f32 = 32 ∨ (Rect.block (s := S3200000x16) S4000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x16.size a ≤ S3200000x16.size a
  hwx3_2 : ∀ i : grid3.Coords, EltTy.bits .f32 = 32 ∨ (Rect.block (s := S3200000x16) S4000x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x16.size a ≤ S3200000x16.size a
  hwx3_3 : ∀ i : grid3.Coords, EltTy.bits .f32 = 32 ∨ (Rect.block (s := S3200000x16) S4000x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x16.size a ≤ S3200000x16.size a
  hwx3_4 : ∀ i : grid3.Coords, EltTy.bits .f32 = 32 ∨ (Rect.block (s := S3200000x16) S4000x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x16.size a ≤ S100000x16.size a
  hwx4_0 : ∀ i : grid4.Coords, EltTy.bits .f32 = 32 ∨ (Rect.block (s := S100000x16) S10000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x16.size a ≤ S100000x16.size a
  hwx4_1 : ∀ i : grid4.Coords, EltTy.bits .f32 = 32 ∨ (Rect.block (s := S100000x16) S10000x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x16.size a ≤ S100000x16.size a
  hwx4_2 : ∀ i : grid4.Coords, EltTy.bits .f32 = 32 ∨ (Rect.block (s := S100000x16) S10000x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x16.size a ≤ S1x16.size a
  hwx4_3 : ∀ i : grid4.Coords, EltTy.bits .f32 = 32 ∨ (Rect.block (s := S1x16) S1x16.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x16.size a ≤ S100000x16.size a
  hwx4_4 : ∀ i : grid4.Coords, EltTy.bits .f32 = 32 ∨ (Rect.block (s := S100000x16) S10000x16.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x16.size a ≤ S100000x16.size a
  hwx5_0 : ∀ i : grid5.Coords, EltTy.bits .f32 = 32 ∨ (Rect.block (s := S100000x16) S10000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S16x16.size a ≤ S16x16.size a
  hwx5_1 : ∀ i : grid5.Coords, EltTy.bits .f32 = 32 ∨ (Rect.block (s := S16x16) S16x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x16.size a ≤ S100000x16.size a
  hwx5_2 : ∀ i : grid5.Coords, EltTy.bits .f32 = 32 ∨ (Rect.block (s := S100000x16) S10000x16.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x16.size a ≤ S3200000x16.size a
  hwx6_0 : ∀ i : grid6.Coords, EltTy.bits .f32 = 32 ∨ (Rect.block (s := S3200000x16) S4000x16.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x16.size a ≤ S3200000x16.size a
  hwx6_1 : ∀ i : grid6.Coords, EltTy.bits .f32 = 32 ∨ (Rect.block (s := S3200000x16) S4000x16.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x16.size a ≤ S3200000x16.size a
  hwx6_2 : ∀ i : grid6.Coords, EltTy.bits .f32 = 32 ∨ (Rect.block (s := S3200000x16) S4000x16.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4000x16.size a ≤ S3200000x16.size a
  hwx6_3 : ∀ i : grid6.Coords, EltTy.bits .f32 = 32 ∨ (Rect.block (s := S3200000x16) S4000x16.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S4000x16.size a ≤ S3200000x16.size a
  hwx6_4 : ∀ i : grid6.Coords, EltTy.bits .f32 = 32 ∨ (Rect.block (s := S3200000x16) S4000x16.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x16.size a ≤ S100000x16.size a
  hwx7_0 : ∀ i : grid7.Coords, EltTy.bits .f32 = 32 ∨ (Rect.block (s := S100000x16) S10000x16.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x16.size a ≤ S100000x16.size a
  hwx7_1 : ∀ i : grid7.Coords, EltTy.bits .f32 = 32 ∨ (Rect.block (s := S100000x16) S10000x16.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x16.size a ≤ S100000x16.size a
  hwx7_2 : ∀ i : grid7.Coords, EltTy.bits .f32 = 32 ∨ (Rect.block (s := S100000x16) S10000x16.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x16.size a ≤ S1x16.size a
  hwx7_3 : ∀ i : grid7.Coords, EltTy.bits .f32 = 32 ∨ (Rect.block (s := S1x16) S1x16.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S10000x16.size a ≤ S100000x16.size a
  hwx7_4 : ∀ i : grid7.Coords, EltTy.bits .f32 = 32 ∨ (Rect.block (s := S100000x16) S10000x16.size (cc7_transform_4 i) (hinb7_4 i)).WholeWords (EltTy.packing .f32)

variable [Facts₀]

def dot_S8000x16_S16x16_S8000x16_1_0_0_1_n_n : DotDims S8000x16 S16x16 S8000x16 where
  lhsContracting := [1]
  rhsContracting := [0]
  lhsNonContracting := [0]
  rhsNonContracting := [1]
  lhsBatch := []
  rhsBatch := []
  wf := dot_S8000x16_S16x16_S8000x16_1_0_0_1_n_n_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

abbrev win0_0 : Pipeline.Window sig grid0 :=
  Pipeline.Window.ofSpec (Memref.whole main_arg2) S8000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_0) S10000x16.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_1) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v16) S4000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S4000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S4000x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v31) S4000x16.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v32) S4000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v35) S10000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v9_1) S10000x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v24) S10000x16.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v36) S1x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v37) S10000x16.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v37) S10000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S16x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v38) S10000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v16) S4000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v5) S4000x16.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v23) S4000x16.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v45) S4000x16.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v46) S4000x16.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v49) S10000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v9_1) S10000x16.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v38) S10000x16.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v50) S1x16.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v51) S10000x16.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000x16 : Shape := ⟨2, ![3200000, 16]⟩
abbrev S16x16 : Shape := ⟨2, ![16, 16]⟩
abbrev S16 : Shape := ⟨1, ![16]⟩
abbrev S128x16 : Shape := ⟨2, ![128, 16]⟩
abbrev S1x3200000 : Shape := ⟨2, ![1, 3200000]⟩
abbrev S3200000 : Shape := ⟨1, ![3200000]⟩
abbrev S1x16 : Shape := ⟨2, ![1, 16]⟩
abbrev S_ : Shape := ⟨0, ![]⟩
abbrev S100000x16 : Shape := ⟨2, ![100000, 16]⟩
abbrev S3200000x1 : Shape := ⟨2, ![3200000, 1]⟩

abbrev nBuf : Space → Nat
  | .hbm => 102
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000x16, .f32⟩
  | .hbm, ⟨3, _⟩ => ⟨S16x16, .f32⟩
  | .hbm, ⟨4, _⟩ => ⟨S16, .f32⟩
  | .hbm, ⟨5, _⟩ => ⟨S128x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S3200000x16, .f32⟩
  | .hbm, ⟨14, _⟩ => ⟨S1x16, .f32⟩
  | .hbm, ⟨15, _⟩ => ⟨S3200000x16, .f32⟩
  | .hbm, ⟨16, _⟩ => ⟨S3200000x16, .f32⟩
  | .hbm, ⟨17, _⟩ => ⟨S_, .f32⟩
  | .hbm, ⟨18, _⟩ => ⟨S100000x16, .f32⟩
  | .hbm, ⟨19, _⟩ => ⟨S3200000x1, .i32⟩
  | .hbm, ⟨20, _⟩ => ⟨S100000x16, .f32⟩
  | .hbm, ⟨21, _⟩ => ⟨S_, .f32⟩
  | .hbm, ⟨22, _⟩ => ⟨S100000x16, .f32⟩
  | .hbm, ⟨23, _⟩ => ⟨S100000x16, .f32⟩
  | .hbm, ⟨24, _⟩ => ⟨S_, .f32⟩
  | .hbm, ⟨25, _⟩ => ⟨S100000x16, .f32⟩
  | .hbm, ⟨26, _⟩ => ⟨S100000x16, .i1⟩
  | .hbm, ⟨27, _⟩ => ⟨S100000x16, .f32⟩
  | .hbm, ⟨28, _⟩ => ⟨S_, .f32⟩
  | .hbm, ⟨29, _⟩ => ⟨S100000x16, .f32⟩
  | .hbm, ⟨30, _⟩ => ⟨S100000x16, .f32⟩
  | .hbm, ⟨31, _⟩ => ⟨S100000x16, .f32⟩
  | .hbm, ⟨32, _⟩ => ⟨S_, .f32⟩
  | .hbm, ⟨33, _⟩ => ⟨S_, .f32⟩
  | .hbm, ⟨34, _⟩ => ⟨S100000x16, .f32⟩
  | .hbm, ⟨35, _⟩ => ⟨S100000x16, .f32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S3200000x16, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x16, .f32⟩
  | .hbm, ⟨54, _⟩ => ⟨S100000x16, .f32⟩
  | .hbm, ⟨55, _⟩ => ⟨S100000x16, .f32⟩
  | .hbm, ⟨56, _⟩ => ⟨S3200000x16, .f32⟩
  | .hbm, ⟨57, _⟩ => ⟨S3200000x16, .f32⟩
  | .hbm, ⟨58, _⟩ => ⟨S_, .i32⟩
  | .hbm, ⟨59, _⟩ => ⟨S3200000, .i32⟩
  | .hbm, ⟨60, _⟩ => ⟨S3200000, .i1⟩
  | .hbm, ⟨61, _⟩ => ⟨S_, .i32⟩
  | .hbm, ⟨62, _⟩ => ⟨S3200000, .i32⟩
  | .hbm, ⟨63, _⟩ => ⟨S3200000, .i32⟩
  | .hbm, ⟨64, _⟩ => ⟨S3200000, .i32⟩
  | .hbm, ⟨65, _⟩ => ⟨S3200000x1, .i32⟩
  | .hbm, ⟨66, _⟩ => ⟨S3200000x16, .f32⟩
  | .hbm, ⟨67, _⟩ => ⟨S3200000x16, .f32⟩
  | .hbm, ⟨68, _⟩ => ⟨S_, .f32⟩
  | .hbm, ⟨69, _⟩ => ⟨S100000x16, .f32⟩
  | .hbm, ⟨70, _⟩ => ⟨S3200000x1, .i32⟩
  | .hbm, ⟨71, _⟩ => ⟨S100000x16, .f32⟩
  | .hbm, ⟨72, _⟩ => ⟨S100000x16, .f32⟩
  | .hbm, ⟨73, _⟩ => ⟨S100000x16, .f32⟩
  | .hbm, ⟨74, _⟩ => ⟨S1x16, .f32⟩
  | .hbm, ⟨75, _⟩ => ⟨S100000x16, .f32⟩
  | .hbm, ⟨76, _⟩ => ⟨S100000x16, .f32⟩
  | .hbm, ⟨77, _⟩ => ⟨S_, .f32⟩
  | .hbm, ⟨78, _⟩ => ⟨S100000x16, .f32⟩
  | .hbm, ⟨79, _⟩ => ⟨S100000x16, .f32⟩
  | .hbm, ⟨80, _⟩ => ⟨S100000x16, .f32⟩
  | .hbm, ⟨81, _⟩ => ⟨S3200000x16, .f32⟩
  | .hbm, ⟨82, _⟩ => ⟨S3200000x16, .f32⟩
  | .hbm, ⟨83, _⟩ => ⟨S_, .i32⟩
  | .hbm, ⟨84, _⟩ => ⟨S3200000, .i32⟩
  | .hbm, ⟨85, _⟩ => ⟨S3200000, .i1⟩
  | .hbm, ⟨86, _⟩ => ⟨S_, .i32⟩
  | .hbm, ⟨87, _⟩ => ⟨S3200000, .i32⟩
  | .hbm, ⟨88, _⟩ => ⟨S3200000, .i32⟩
  | .hbm, ⟨89, _⟩ => ⟨S3200000, .i32⟩
  | .hbm, ⟨90, _⟩ => ⟨S3200000x1, .i32⟩
  | .hbm, ⟨91, _⟩ => ⟨S3200000x16, .f32⟩
  | .hbm, ⟨92, _⟩ => ⟨S3200000x16, .f32⟩
  | .hbm, ⟨93, _⟩ => ⟨S_, .f32⟩
  | .hbm, ⟨94, _⟩ => ⟨S100000x16, .f32⟩
  | .hbm, ⟨95, _⟩ => ⟨S3200000x1, .i32⟩
  | .hbm, ⟨96, _⟩ => ⟨S100000x16, .f32⟩
  | .hbm, ⟨97, _⟩ => ⟨S100000x16, .f32⟩
  | .hbm, ⟨98, _⟩ => ⟨S100000x16, .f32⟩
  | .hbm, ⟨99, _⟩ => ⟨S1x16, .f32⟩
  | .hbm, ⟨100, _⟩ => ⟨S100000x16, .f32⟩
  | .hbm, ⟨101, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_10 : Ref sig .tc := ⟨.hbm, 83, rfl⟩
abbrev main_v58 : Ref sig .tc := ⟨.hbm, 84, rfl⟩
abbrev main_v59 : Ref sig .tc := ⟨.hbm, 85, rfl⟩
abbrev main_c_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S16_S1x16_1 : S16.BroadcastsInDim S1x16 (![1] : Fin 1 → Fin S1x16.rank)
  bcast_S1x16_S3200000x16_0_1 : S1x16.BroadcastsInDim S3200000x16 (![0, 1] : Fin 2 → Fin S3200000x16.rank)
  bcast_S_S100000x16 : S_.BroadcastsInDim S100000x16 (![] : Fin 0 → Fin S100000x16.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S1x16_S100000x16_0_1 : S1x16.BroadcastsInDim S100000x16 (![0, 1] : Fin 2 → Fin S100000x16.rank)
  dot_S3200000x16_S16x16_S3200000x16_1_0_0_1_n_n_wf : DotDims.WF S3200000x16 S16x16 S3200000x16 [1] [0] [0] [1] [] []
  scatter_S100000x16_S3200000x1_S3200000x16_1_0_0_1_wf : ScatterDims.WF S100000x16 S3200000x1 S3200000x16 [1] [0] [0] 1
  gather_S100000x16_S3200000x1_S3200000x16_1_0_n_n_0_1_116_wf : GatherDims.WF S100000x16 S3200000x1 S3200000x16 [1] [0] [] [0] [] 1 ![1, 16]
  dot_S100000x128_S128x16_S100000x16_1_0_0_1_n_n_wf : DotDims.WF S100000x128 S128x16 S100000x16 [1] [0] [0] [1] [] []
  dot_S100000x16_S16x16_S100000x16_1_0_0_1_n_n_wf : DotDims.WF S100000x16 S16x16 S100000x16 [1] [0] [0] [1] [] []

variable [Facts₀]

def dot_S3200000x16_S16x16_S3200000x16_1_0_0_1_n_n : DotDims S3200000x16 S16x16 S3200000x16 where
  lhsContracting := [1]
  rhsContracting := [0]
  lhsNonContracting := [0]
  rhsNonContracting := [1]
  lhsBatch := []
  rhsBatch := []
  wf := dot_S3200000x16_S16x16_S3200000x16_1_0_0_1_n_n_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.KernelRun.lean ====
import proofs.«170494_j3813930959125_2_alg».proof.Proof.GenP.KernelIdeal.Frame

/-!
# The idealized kernel's run, with its result kept

The program is a chain of fifteen segments: seven stretches of host operations and eight regions. Its frame follows the
contents of every buffer from segment to segment (`W0` at launch, ..., `W15` at the return) and ends with every
buffer that outlives the program holding `W15`. The frame claim reads only the nine argument arrays off that last
state. Read here is one more buffer, the result `main_v51`: every weakly fair execution terminates, without a fault,
with the result array at `W15` of its buffer and the arguments as launched. What `W15` holds there is computed elsewhere.
-/

set_option maxRecDepth 16384

noncomputable section

namespace Cert.KernelIdeal.GcnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result array holding what the
    fold of the segments leaves in its buffer, and the nine argument arrays as launched. -/
theorem run_result : θ_run defs (onTc (τ := τ) (main (F := F))) ⟨m, fun _ => 0, ρ⟩ (fun r => ∀ c : Dev nD,
      r.2.mem ((c.tc : Thread nD τ).loc main_v51) = W15 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v51 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c)⟩)

end Cert.KernelIdeal.GcnRun

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibDenseTile.lean ====
import Idealize.ShloMosaic.Lib.ValueLayout
import Idealize.ShloMosaic.PureOps.Ideal.Laws
import proofs.«170494_j3813930959125_2_alg».proof.Proof.LibPlainDot

/-!
# A dense layer on a tile of rows

A tile `[M, K]` of rows times a weight matrix `[K, N]` into a zero accumulator, plus a bias vector `[N]` stood up as
one row `[1, N]` and repeated down the `M` rows, read at `(p, q)` over the extended reals: the plain sum
`∑ k < K, l (p, k) · w (k, q)` plus `b q`. Changes of float format on the way into the product are the identity there,
so the operands may carry any formats. Any `M`, `K`, `N`.
-/

noncomputable section

namespace Cert.LibDenseTile

open Idealize.ShloMosaic Idealize.ShloMosaic.ValueIdx
open scoped BigOperators

/-- A bias vector `[N]` stood up as a row and repeated down `M` rows reads, at `(p, q)`, its entry `q`. -/
theorem biasRows_apply {α : Type} {M N : Nat} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) :=
  (broadcastTo_1b_ab_apply _ hb p q).trans (shapeCast_a_1a_apply b hc (0 : Fin 1) q)

/-- The dense layer at `(p, q)`: the row's product with column `q`, plus the bias there. -/
theorem dense_apply {M K N : Nat} {φ₁ φ₂ : FTy} (d : DotDims ⟨2, ![M, K]⟩ ⟨2, ![K, N]⟩ ⟨2, ![M, N]⟩)
    (hd : LibPlainDot.Plain d) (prec : Option ContractPrecision)
    (l : FVec Ideal ⟨2, ![M, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (matmul d prec l w (constant ⟨2, ![M, N]⟩ .f32 0x00000000#32))
        (broadcastTo ⟨2, ![M, N]⟩ (shapeCast ⟨2, ![1, N]⟩ b hc) hb) (ix2 p q)
      = (∑ k : Fin K, l (ix2 p k) * w (ix2 k q)) + b (ix1 q) := by
  rw [addf_apply, biasRows_apply b hc hb p q]
  exact congrArg (· + b (ix1 q)) (LibPlainDot.matmul_zero_apply d hd prec l w p q)

end Cert.LibDenseTile

end
-- ==== Proof.LibRowLayers.lean ====
import Idealize.ShloMosaic.Lib.ValueIdx
import Idealize.ShloMosaic.Lib.ValueLayout
import Idealize.ShloMosaic.Lib.Pipeline.Value
import Idealize.ShloMosaic.PureOps.Ideal.Laws
import proofs.«170494_j3813930959125_2_alg».proof.Proof.LibPlainDot
import proofs.«170494_j3813930959125_2_alg».proof.Proof.LibDenseTile

/-!
# The dense stages of a two-layer graph convolution, as whole-array functions

Over the extended reals a graph-convolution layer is: multiply every node's feature row by a weight matrix, send each
row along the edges scaled by the edge weight and add what arrives at each node, add a bias row, and (in the first
layer) keep the positive part. The edge step is the same on both sides of the comparison and is never opened here.
This file names the dense steps index by index, for any number of rows:

* `rowsTimes x w`: entry `(p, q)` is `∑ k, x (p, k) · w (k, q)`;
* `addRow y b`: entry `(p, q)` is `y (p, q) + b q`;
* `reluRow y b`: entry `(p, q)` is `max (y (p, q) + b q) 0`.

A product computed tile of rows by tile of rows and one computed on the whole array have the same entries, because an
entry only depends on its own row; likewise for the two bias steps. The matrix unit's product into a zero accumulator
and the host's `dot_general` are both `rowsTimes`.
-/

noncomputable section

namespace Cert.Layers

open Idealize.ShloMosaic Idealize.ShloMosaic.ValueIdx
open scoped BigOperators

/-- Offsets that are all zero, however they are spelt. -/
theorem zeros2 : (![0, 0] : Fin 2 → Nat) = fun _ => 0 := funext fun a => by fin_cases a <;> rfl
theorem zeros1 : (![0] : Fin 1 → Nat) = fun _ => 0 := funext fun a => by fin_cases a; rfl

variable {M K N : Nat}

/-- Every row of `x` times the matrix `w`. -/
def rowsTimes (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply (x : (⟨2, ![M, K]⟩ : Shape).Idx → EReal) (w : (⟨2, ![K, N]⟩ : Shape).Idx → EReal)
    (p : Fin M) (q : Fin N) : rowsTimes x w (ix2 p q) = ∑ k : Fin K, x (ix2 p k) * w (ix2 k q) := rfl

/-- The bias row `b` added to every row of `y`. -/
def addRow (y : (⟨2, ![M, N]⟩ : Shape).Idx → EReal) (b : (⟨1, ![N]⟩ : Shape).Idx → EReal) :
    (⟨2, ![M, N]⟩ : Shape).Idx → EReal :=
  fun i => y i + b (ix1 (i 1))

theorem addRow_apply (y : (⟨2, ![M, N]⟩ : Shape).Idx → EReal) (b : (⟨1, ![N]⟩ : Shape).Idx → EReal)
    (p : Fin M) (q : Fin N) : addRow y b (ix2 p q) = y (ix2 p q) + b (ix1 q) := rfl

/-- The positive part of `y` plus the bias row. -/
def reluRow (y : (⟨2, ![M, N]⟩ : Shape).Idx → EReal) (b : (⟨1, ![N]⟩ : Shape).Idx → EReal) :
    (⟨2, ![M, N]⟩ : Shape).Idx → EReal :=
  fun i => max (y i + b (ix1 (i 1))) 0

theorem reluRow_apply (y : (⟨2, ![M, N]⟩ : Shape).Idx → EReal) (b : (⟨1, ![N]⟩ : Shape).Idx → EReal)
    (p : Fin M) (q : Fin N) : reluRow y b (ix2 p q) = max (y (ix2 p q) + b (ix1 q)) 0 := rfl

/-- The matrix unit's product into a zero accumulator is `rowsTimes`, whatever float formats its operands carry. -/
theorem matmul_zero_eq {φ₁ φ₂ : FTy} (d : DotDims ⟨2, ![M, K]⟩ ⟨2, ![K, N]⟩ ⟨2, ![M, N]⟩) (h : LibPlainDot.Plain d)
    (prec : Option ContractPrecision) (l : FVec Ideal ⟨2, ![M, K]⟩ φ₁) (r : FVec Ideal ⟨2, ![K, N]⟩ φ₂) :
    FloatOps.matmul d prec l r (constant ⟨2, ![M, N]⟩ .f32 0x00000000#32) = rowsTimes l r := by
  funext i
  obtain ⟨p, q, rfl⟩ : ∃ (p : Fin M) (q : Fin N), i = ix2 p q := ⟨i 0, i 1, eq_ix2 i⟩
  exact LibPlainDot.matmul_zero_apply d h prec l r p q

/-- The host's `dot_general` is `rowsTimes`. -/
theorem dotGeneral_eq {φ₁ φ₂ : FTy} (d : DotDims ⟨2, ![M, K]⟩ ⟨2, ![K, N]⟩ ⟨2, ![M, N]⟩) (h : LibPlainDot.Plain d)
    (prec : Option ContractPrecision) (sched : HostSchedule) (l : FVec Ideal ⟨2, ![M, K]⟩ φ₁) (r : FVec Ideal ⟨2, ![K, N]⟩ φ₂) :
    FloatOps.dotGeneral d prec sched l r = rowsTimes l r := by
  funext i
  obtain ⟨p, q, rfl⟩ : ∃ (p : Fin M) (q : Fin N), i = ix2 p q := ⟨i 0, i 1, eq_ix2 i⟩
  exact LibPlainDot.dotGeneral_apply d h prec sched l r p q

/-- A tile's rows plus a bias vector stood up as a row and repeated down the tile: entry `(p, q)` gets `b q`. -/
theorem tile_addBias_apply (y : FVec Ideal ⟨2, ![M, N]⟩ .f32) (b : FVec Ideal ⟨1, ![N]⟩ .f32)
    (hs : (⟨2, ![M, N]⟩ : Shape).ShapeCasts ⟨2, ![M, N]⟩)
    (hc : (⟨1, ![N]⟩ : Shape).ShapeCasts ⟨2, ![1, N]⟩) (hb : (⟨2, ![1, N]⟩ : Shape).Broadcasts ⟨2, ![M, N]⟩)
    (p : Fin M) (q : Fin N) :
    addf (shapeCast ⟨2, ![M, N]⟩ y hs) (broadcastTo ⟨2, ![M, N]⟩ (shapeCast ⟨2, ![1, N]⟩ b hc) hb) (ix2 p q)
      = y (ix2 p q) + b (ix1 q) := by
  rw [addf_apply, LibDenseTile.biasRows_apply b hc hb p q, shapeCast_self]

/-- A bias vector made a one-row array and that row repeated down `M` rows, both by `broadcast_in_dim`: entry `(p, q)`
    is the bias entry `q`. -/
theorem rows_of_vector_apply {α : Type} (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (p : Fin M) (q : Fin N) :
    broadcastInDim ⟨2, ![M, N]⟩ ![0, 1] h2 (broadcastInDim ⟨2, ![1, N]⟩ ![1] h1 b) (ix2 p q) = b (ix1 q) := by
  have hq : q.val < N := q.isLt
  rw [broadcastInDim_apply ![0, 1] h2 _ (ix2 p q) (ix2 (0 : Fin 1) q) (fun a => by
        match a with
        | ⟨0, _⟩ => show (0 : Nat) = if (1 : Nat) = 1 then 0 else p.val; rw [if_pos rfl]
        | ⟨1, _⟩ => show q.val = if N = 1 then 0 else q.val; by_cases h : N = 1 <;> simp only [h, if_true, if_false, ite_true, ite_false] <;> omega),
    broadcastInDim_apply ![1] h1 b (ix2 (0 : Fin 1) q) (ix1 q) (fun a => by
        match a with
        | ⟨0, _⟩ => show q.val = if N = 1 then 0 else q.val; by_cases h : N = 1 <;> simp only [h, if_true, if_false, ite_true, ite_false] <;> omega)]

/-- Adding that array of repeated bias rows is `addRow`. -/
theorem addf_rows_of_vector (y : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf y (broadcastInDim ⟨2, ![M, N]⟩ ![0, 1] h2 (broadcastInDim ⟨2, ![1, N]⟩ ![1] h1 b)) = addRow y b := by
  funext i
  obtain ⟨p, q, rfl⟩ : ∃ (p : Fin M) (q : Fin N), i = ix2 p q := ⟨i 0, i 1, eq_ix2 i⟩
  rw [addf_apply, rows_of_vector_apply b h1 h2 p q]
  rfl

/-- Its positive part against an array of zeros is `reluRow`. -/
theorem maximumf_addf_rows_of_vector (y : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (z : FVec Ideal ⟨2, ![M, N]⟩ .f32) (hz : ∀ i, z i = 0) :
    maximumf (addf y (broadcastInDim ⟨2, ![M, N]⟩ ![0, 1] h2 (broadcastInDim ⟨2, ![1, N]⟩ ![1] h1 b))) z = reluRow y b := by
  rw [addf_rows_of_vector y b h1 h2]
  funext i
  rw [maximumf_apply, hz i]
  rfl

end Cert.Layers

end
-- ==== Proof.LibRowTile.lean ====
import Idealize.ShloMosaic.Lib.ValueIdx
import Idealize.ShloMosaic.Lib.ValueLayout
import Idealize.ShloMosaic.Lib.Pipeline.Value
import Idealize.ShloMosaic.PureOps.Ideal.Laws
import proofs.«170494_j3813930959125_2_alg».proof.Proof.LibPlainDot
import proofs.«170494_j3813930959125_2_alg».proof.Proof.LibRowLayers

/-!
# Dense layers computed one tile of rows at a time

The three dense steps `rowsTimes`, `addRow`, `reluRow` produce row `r` of their result from row `r` of their first
operand alone. So a tile of `T` rows whose row `p` is row `r` of an `[M, K]` array yields, in its row `p`, row `r` of what
the same step yields on the whole array (`rowsTimes_row`, `addRow_row`, `reluRow_row`).

The bias may arrive as a one-row array `[1, N]` instead of a vector: `rowVec` names its row as a vector, and the vector
unit's spelling of "add the row to every row of the tile" and "then keep the positive part" are `addRow` / `reluRow` of
that vector at the ideal instance, for any number of rows (`addf_bcastRow`, `maximumf_addf_bcastRow`). A change of float
format is the identity there (`truncf_eq`). A vector stood up as a one-row array has that vector as its row
(`rowVec_shapeCast`).
-/

noncomputable section

namespace Cert.RowTile

open Idealize.ShloMosaic Idealize.ShloMosaic.ValueIdx Cert.Layers
open scoped BigOperators

variable {M T K N : Nat}

/-- Row `p` of a product of a tile is row `r` of the product of the whole array, when the tile's row `p` is the
    array's row `r`. -/
theorem rowsTimes_row (A : (⟨2, ![M, K]⟩ : Shape).Idx → EReal) (At : (⟨2, ![T, K]⟩ : Shape).Idx → EReal)
    (w : (⟨2, ![K, N]⟩ : Shape).Idx → EReal) (p : Fin T) (r : Fin M)
    (h : ∀ k : Fin K, At (ix2 p k) = A (ix2 r k)) (q : Fin N) :
    rowsTimes At w (ix2 p q) = rowsTimes A w (ix2 r q) := by
  rw [rowsTimes_apply, rowsTimes_apply]
  exact Finset.sum_congr rfl fun k _ => by rw [h k]

/-- The same for the bias step. -/
theorem addRow_row (y : (⟨2, ![M, N]⟩ : Shape).Idx → EReal) (yt : (⟨2, ![T, N]⟩ : Shape).Idx → EReal)
    (b : (⟨1, ![N]⟩ : Shape).Idx → EReal) (p : Fin T) (r : Fin M) (q : Fin N)
    (h : yt (ix2 p q) = y (ix2 r q)) : addRow yt b (ix2 p q) = addRow y b (ix2 r q) := by
  rw [addRow_apply, addRow_apply, h]

/-- The same for the bias step followed by the positive part. -/
theorem reluRow_row (y : (⟨2, ![M, N]⟩ : Shape).Idx → EReal) (yt : (⟨2, ![T, N]⟩ : Shape).Idx → EReal)
    (b : (⟨1, ![N]⟩ : Shape).Idx → EReal) (p : Fin T) (r : Fin M) (q : Fin N)
    (h : yt (ix2 p q) = y (ix2 r q)) : reluRow yt b (ix2 p q) = reluRow y b (ix2 r q) := by
  rw [reluRow_apply, reluRow_apply, h]

/-- The one row of a `[1, N]` array, as a vector. -/
def rowVec (b : (⟨2, ![1, N]⟩ : Shape).Idx → EReal) : (⟨1, ![N]⟩ : Shape).Idx → EReal :=
  fun i => b (ix2 (0 : Fin 1) (i 0))

theorem rowVec_apply (b : (⟨2, ![1, N]⟩ : Shape).Idx → EReal) (q : Fin N) : rowVec b (ix1 q) = b (ix2 (0 : Fin 1) q) := rfl

/-- A vector stood up as a one-row array has the vector as its row. -/
theorem rowVec_shapeCast (b : (⟨1, ![N]⟩ : Shape).Idx → EReal) (hc : (⟨1, ![N]⟩ : Shape).ShapeCasts ⟨2, ![1, N]⟩) :
    rowVec (shapeCast ⟨2, ![1, N]⟩ b hc) = b := by
  funext i
  obtain ⟨q, rfl⟩ : ∃ q : Fin N, i = ix1 q := ⟨i 0, eq_ix1 i⟩
  exact shapeCast_a_1a_apply b hc (0 : Fin 1) q

/-- At the ideal instance a change of float format leaves every entry as it is. -/
theorem truncf_eq {s : Shape} {φ ψ : FTy} (a : FVec Ideal s φ) (h : ψ.bits < φ.bits) :
    (truncf ψ a h : FVec Ideal s ψ) = a := rfl

/-- The vector unit's "add the one-row array to every row of the tile" is `addRow` of that row. -/
theorem addf_bcastRow (y : FVec Ideal ⟨2, ![M, N]⟩ .f32) (brow : FVec Ideal ⟨2, ![1, N]⟩ .f32)
    (hb : (⟨2, ![1, N]⟩ : Shape).Broadcasts ⟨2, ![M, N]⟩) :
    addf y (broadcastTo ⟨2, ![M, N]⟩ brow hb) = addRow y (rowVec brow) := by
  funext i
  obtain ⟨p, q, rfl⟩ : ∃ (p : Fin M) (q : Fin N), i = ix2 p q := ⟨i 0, i 1, eq_ix2 i⟩
  rw [addf_apply, broadcastTo_1b_ab_apply brow hb p q]
  rfl

/-- Followed by the maximum with a tile of zeros it is `reluRow` of that row. -/
theorem maximumf_addf_bcastRow (y : FVec Ideal ⟨2, ![M, N]⟩ .f32) (brow : FVec Ideal ⟨2, ![1, N]⟩ .f32)
    (hb : (⟨2, ![1, N]⟩ : Shape).Broadcasts ⟨2, ![M, N]⟩) :
    maximumf (addf y (broadcastTo ⟨2, ![M, N]⟩ brow hb))
        (broadcast ⟨2, ![M, N]⟩ (Scalar.ofBits (F := Ideal) .f32 0x00000000#32))
      = reluRow y (rowVec brow) := by
  rw [addf_bcastRow y brow hb]
  funext i
  rw [maximumf_apply, broadcast_apply]
  show max _ (Ideal.ofBits .f32 0x00000000#32) = _
  rw [Ideal.ofBits_zero_f32]
  rfl

end Cert.RowTile

end
-- ==== Proof.Stages.lean ====
import Idealize.ShloMosaic.Lib.ValueIdx
import Idealize.ShloMosaic.PureOps.Ideal.Laws
import proofs.«170494_j3813930959125_2_alg».proof.Proof.LibRowTile

/-!
# The stages of a two-layer graph convolution with per-channel edge weights

Over the extended reals. Nodes carry rows of 16 channels; every edge carries a row of 16 weights
`ew = edge_attr · We + be`. With `deg = 1 + (sum of ew over the edges arriving at a node)`, the normaliser of a node is
`dinv = 1/sqrt(|deg| + eps)` where `deg > 0` and `0` elsewhere, channel by channel. A layer multiplies every node row by its
weight matrix (`h`), sends along each edge the product `dinv(source) · ew · dinv(target) · h(source)`, adds at every node
what arrives there (`agg`), and returns `agg + dinv² · h + bias`; the first layer keeps the positive part.

The dense steps are `rowsTimes`, `addRow`, `reluRow` (a row of the result depends on the same row of the operand only).
Named here are the three steps that act entry by entry — the normaliser, the product along an edge and the self-loop
term — and the whole network as ONE function of its inputs and of the two moves along edges (`along`: read a node array
at each edge's source or target; `collect`: add an edge array up at each edge's target), which are left abstract: both
sides of the comparison perform them by the same operations on equal operands, so they are never opened.
-/

noncomputable section

namespace Cert.Gcn

open Idealize.ShloMosaic Idealize.ShloMosaic.ValueIdx Cert.Layers Cert.RowTile

/-- An array of `n` rows of `c` extended reals. -/
abbrev Mat (n c : Nat) : Type := (⟨2, ![n, c]⟩ : Shape).Idx → EReal
/-- A vector of `c` extended reals. -/
abbrev Row (c : Nat) : Type := (⟨1, ![c]⟩ : Shape).Idx → EReal

/-- The degree with its self-loop: the float word `0x3F800000` is one. -/
def degAt (d : EReal) : EReal := FloatOps.addf (F := Ideal) (φ := .f32) d (Scalar.ofBits (F := Ideal) .f32 0x3F800000#32)

/-- One entry of the normaliser: `1/sqrt(|deg| + eps)` where `deg > 0`, zero elsewhere (`eps` the float word `0x2B8CBCCC`). -/
def dinvAt (d : EReal) : EReal :=
  Scalar.select (FloatOps.cmpf (F := Ideal) (φ := .f32) .ogt (degAt d) (Scalar.ofBits (F := Ideal) .f32 0x00000000#32))
    (FloatOps.rsqrt (F := Ideal) (φ := .f32) (FloatOps.addf (F := Ideal) (φ := .f32) (FloatOps.absf (F := Ideal) (φ := .f32) (degAt d))
      (Scalar.ofBits (F := Ideal) .f32 0x2B8CBCCC#32)))
    (Scalar.ofBits (F := Ideal) .f32 0x00000000#32)

variable {n c : Nat}

/-- The normaliser of every node, channel by channel. -/
def dinv (deg : Mat n c) : Mat n c := fun i => dinvAt (deg i)
/-- Its square, the weight of a node's own row. -/
def dinvSq (deg : Mat n c) : Mat n c := fun i => dinvAt (deg i) * dinvAt (deg i)
/-- What travels along an edge: source normaliser · edge weight · target normaliser · source row, grouped from the left. -/
def along4 (a b d e : Mat n c) : Mat n c := fun i => a i * b i * d i * e i
/-- What arrived plus the node's own row weighted by the squared normaliser. -/
def selfLoop (agg dsq h : Mat n c) : Mat n c := fun i => agg i + dsq i * h i

theorem dinv_apply (deg : Mat n c) (i) : dinv deg i = dinvAt (deg i) := rfl
theorem dinvSq_apply (deg : Mat n c) (i) : dinvSq deg i = dinvAt (deg i) * dinvAt (deg i) := rfl
theorem along4_apply (a b d e : Mat n c) (i) : along4 a b d e i = a i * b i * d i * e i := rfl
theorem selfLoop_apply (agg dsq h : Mat n c) (i) : selfLoop agg dsq h i = agg i + dsq i * h i := rfl

/-- The whole network. `E` edges, `N` nodes, `C` channels, `K` input features; `src` / `dst` read a node array at every
    edge's source / target, `collect` adds an edge array up at every edge's target. -/
def net {E N C K : Nat} (src dst : Mat N C → Mat E C) (collect : Mat E C → Mat N C)
    (x : Mat N K) (ea : Mat E C) (We : Mat C C) (be : Row C) (W1 : Mat K C) (b1 : Row C) (W2 : Mat C C) (b2 : Row C) : Mat N C :=
  let ew : Mat E C := addRow (rowsTimes ea We) be
  let deg : Mat N C := collect ew
  let ds : Mat E C := src (dinv deg)
  let dd : Mat E C := dst (dinv deg)
  let h1 : Mat N C := rowsTimes x W1
  let o1 : Mat N C := reluRow (selfLoop (collect (along4 ds ew dd (src h1))) (dinvSq deg) h1) b1
  let h2 : Mat N C := rowsTimes o1 W2
  addRow (selfLoop (collect (along4 ds ew dd (src h2))) (dinvSq deg) h2) b2

end Cert.Gcn

end
-- ==== Proof.Walks.lean ====
import proofs.«170494_j3813930959125_2_alg».proof.Proof.GenP.KernelIdeal.Frame

/-!
# Buffers that nothing writes in between

The program's frame follows every buffer's contents from segment to segment (`W0` at launch, ..., `W15` at the
return). A buffer that a stretch of host operations does not write, and a buffer that a region does not own — or owns
only as an input, which a region never writes back —, holds after the segment what it held before. Each statement
below carries one buffer across the segments between where it is produced and where it is next read.
-/

set_option maxRecDepth 16384

noncomputable section

namespace Cert.KernelIdeal.Walks

open Idealize.ShloMosaic Idealize.ShloMosaic.TcCoe Idealize.SL.Sem
open Idealize.ShloMosaic.Pipeline (Dat Cfg Window)
open Cert.KernelIdeal Cert.KernelIdeal.Gen Cert.KernelIdeal.GenP

variable {F : FTy → Type} [FloatOps F]
variable (m : (ℓ : Loc nD τ sig) → Buf (Elt F) ℓ) (ρ : Dev nD → PrngReg) (c : Dev nD)

/-- Nothing before the first region writes the edge features. -/
theorem keep_arg2_1_0 : W1 m ρ c (Proc.devRef .tc main_arg2) = W0 m ρ c (Proc.devRef .tc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nor the edge-weight matrix. -/
theorem keep_arg3_1_0 : W1 m ρ c (Proc.devRef .tc main_arg3) = W0 m ρ c (Proc.devRef .tc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The first region does not touch the edges' targets. -/
theorem keep_v3_2_1 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-- Nor does anything up to the end of the second region. -/
theorem keep_v3_4_2 : W4 m ρ c (Proc.devRef .tc main_v3) = W2 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nor anything up to the end of the fourth. -/
theorem keep_v3_8_4 : W8 m ρ c (Proc.devRef .tc main_v3) = W4 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nor anything up to the end of the seventh. -/
theorem keep_v3_13_8 : W13 m ρ c (Proc.devRef .tc main_v3) = W8 m ρ c (Proc.devRef .tc main_v3) :=
  calc W13 m ρ c (Proc.devRef .tc main_v3)
    _ = W12 m ρ c (Proc.devRef .tc main_v3) := W13_of_ne m ρ c main_v3 (by decide)
    _ = W11 m ρ c (Proc.devRef .tc main_v3) := StableHlo.after_of_forall_not_mem (b := Proc.devRef .tc main_v3) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v3) := W11_of_ne m ρ c main_v3 (by decide)
    _ = W9 m ρ c (Proc.devRef .tc main_v3) := W10_of_ne m ρ c main_v3 (by decide)
    _ = W8 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The edges' sources stay as first computed up to the end of the second region. -/
theorem keep_v1_4_1 : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

/-- And up to the end of the third. -/
theorem keep_v1_6_4 : W6 m ρ c (Proc.devRef .tc main_v1) = W4 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- And up to the end of the sixth. -/
theorem keep_v1_11_6 : W11 m ρ c (Proc.devRef .tc main_v1) = W6 m ρ c (Proc.devRef .tc main_v1) :=
  calc W11 m ρ c (Proc.devRef .tc main_v1)
    _ = W10 m ρ c (Proc.devRef .tc main_v1) := W11_of_ne m ρ c main_v1 (by decide)
    _ = W9 m ρ c (Proc.devRef .tc main_v1) := W10_of_ne m ρ c main_v1 (by decide)
    _ = W8 m ρ c (Proc.devRef .tc main_v1) := StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The node features are as launched when the third region starts. -/
theorem keep_arg0_5_0 : W5 m ρ c (Proc.devRef .tc main_arg0) = W0 m ρ c (Proc.devRef .tc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- So is the first layer's weight matrix. -/
theorem keep_arg5_5_0 : W5 m ρ c (Proc.devRef .tc main_arg5) = W0 m ρ c (Proc.devRef .tc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The edge weights stay as the first region left them until the fourth region reads them. -/
theorem keep_v5_7_2 : W7 m ρ c (Proc.devRef .tc main_v5) = W2 m ρ c (Proc.devRef .tc main_v5) :=
  calc W7 m ρ c (Proc.devRef .tc main_v5)
    _ = W6 m ρ c (Proc.devRef .tc main_v5) := StableHlo.after_of_forall_not_mem (b := Proc.devRef .tc main_v5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v5) := W6_of_ne m ρ c main_v5 (by decide)
    _ = W4 m ρ c (Proc.devRef .tc main_v5) := StableHlo.after_of_forall_not_mem (b := Proc.devRef .tc main_v5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v5) := W4_of_ne m ρ c main_v5 (by decide)
    _ = W2 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- And until the seventh reads them again (the fourth only reads them). -/
theorem keep_v5_12_7 : W12 m ρ c (Proc.devRef .tc main_v5) = W7 m ρ c (Proc.devRef .tc main_v5) :=
  calc W12 m ρ c (Proc.devRef .tc main_v5)
    _ = W11 m ρ c (Proc.devRef .tc main_v5) := StableHlo.after_of_forall_not_mem (b := Proc.devRef .tc main_v5) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v5) := W11_of_ne m ρ c main_v5 (by decide)
    _ = W9 m ρ c (Proc.devRef .tc main_v5) := W10_of_ne m ρ c main_v5 (by decide)
    _ = W8 m ρ c (Proc.devRef .tc main_v5) := StableHlo.after_of_forall_not_mem (b := Proc.devRef .tc main_v5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v5) := (W8_arr m ρ c 1).trans (((dat3 (V7 m ρ) c).arrAt_in 1 rfl _).trans (A_eq3 (V7 m ρ) c 1))

/-- The source normalisers stay as gathered until the fourth region reads them. -/
theorem keep_v16_7_5 : W7 m ρ c (Proc.devRef .tc main_v16) = W5 m ρ c (Proc.devRef .tc main_v16) :=
  calc W7 m ρ c (Proc.devRef .tc main_v16)
    _ = W6 m ρ c (Proc.devRef .tc main_v16) := StableHlo.after_of_forall_not_mem (b := Proc.devRef .tc main_v16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v16) := W6_of_ne m ρ c main_v16 (by decide)

/-- And until the seventh reads them again. -/
theorem keep_v16_12_7 : W12 m ρ c (Proc.devRef .tc main_v16) = W7 m ρ c (Proc.devRef .tc main_v16) :=
  calc W12 m ρ c (Proc.devRef .tc main_v16)
    _ = W11 m ρ c (Proc.devRef .tc main_v16) := StableHlo.after_of_forall_not_mem (b := Proc.devRef .tc main_v16) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v16) := W11_of_ne m ρ c main_v16 (by decide)
    _ = W9 m ρ c (Proc.devRef .tc main_v16) := W10_of_ne m ρ c main_v16 (by decide)
    _ = W8 m ρ c (Proc.devRef .tc main_v16) := StableHlo.after_of_forall_not_mem (b := Proc.devRef .tc main_v16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v16) := (W8_arr m ρ c 0).trans (((dat3 (V7 m ρ) c).arrAt_in 0 rfl _).trans (A_eq3 (V7 m ρ) c 0))

/-- Likewise the target normalisers. -/
theorem keep_v23_7_5 : W7 m ρ c (Proc.devRef .tc main_v23) = W5 m ρ c (Proc.devRef .tc main_v23) :=
  calc W7 m ρ c (Proc.devRef .tc main_v23)
    _ = W6 m ρ c (Proc.devRef .tc main_v23) := StableHlo.after_of_forall_not_mem (b := Proc.devRef .tc main_v23) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v23) := W6_of_ne m ρ c main_v23 (by decide)

/-- Likewise again. -/
theorem keep_v23_12_7 : W12 m ρ c (Proc.devRef .tc main_v23) = W7 m ρ c (Proc.devRef .tc main_v23) :=
  calc W12 m ρ c (Proc.devRef .tc main_v23)
    _ = W11 m ρ c (Proc.devRef .tc main_v23) := StableHlo.after_of_forall_not_mem (b := Proc.devRef .tc main_v23) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v23) := W11_of_ne m ρ c main_v23 (by decide)
    _ = W9 m ρ c (Proc.devRef .tc main_v23) := W10_of_ne m ρ c main_v23 (by decide)
    _ = W8 m ρ c (Proc.devRef .tc main_v23) := StableHlo.after_of_forall_not_mem (b := Proc.devRef .tc main_v23) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v23) := (W8_arr m ρ c 2).trans (((dat3 (V7 m ρ) c).arrAt_in 2 rfl _).trans (A_eq3 (V7 m ρ) c 2))

/-- The first layer's bias is as launched when it is stood up as a row. -/
theorem keep_arg6_8_0 : W8 m ρ c (Proc.devRef .tc main_arg6) = W0 m ρ c (Proc.devRef .tc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The squared normalisers stay as the second region left them until the fifth region reads them. -/
theorem keep_v9_1_9_4 : W9 m ρ c (Proc.devRef .tc main_v9_1) = W4 m ρ c (Proc.devRef .tc main_v9_1) :=
  calc W9 m ρ c (Proc.devRef .tc main_v9_1)
    _ = W8 m ρ c (Proc.devRef .tc main_v9_1) := StableHlo.after_of_forall_not_mem (b := Proc.devRef .tc main_v9_1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v9_1) := W8_of_ne m ρ c main_v9_1 (by decide)
    _ = W6 m ρ c (Proc.devRef .tc main_v9_1) := StableHlo.after_of_forall_not_mem (b := Proc.devRef .tc main_v9_1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v9_1) := W6_of_ne m ρ c main_v9_1 (by decide)
    _ = W4 m ρ c (Proc.devRef .tc main_v9_1) := StableHlo.after_of_forall_not_mem (b := Proc.devRef .tc main_v9_1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- And until the last region reads them again (the fifth only reads them). -/
theorem keep_v9_1_14_9 : W14 m ρ c (Proc.devRef .tc main_v9_1) = W9 m ρ c (Proc.devRef .tc main_v9_1) :=
  calc W14 m ρ c (Proc.devRef .tc main_v9_1)
    _ = W13 m ρ c (Proc.devRef .tc main_v9_1) := StableHlo.after_of_forall_not_mem (b := Proc.devRef .tc main_v9_1) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_v9_1) := W13_of_ne m ρ c main_v9_1 (by decide)
    _ = W11 m ρ c (Proc.devRef .tc main_v9_1) := StableHlo.after_of_forall_not_mem (b := Proc.devRef .tc main_v9_1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v9_1) := W11_of_ne m ρ c main_v9_1 (by decide)
    _ = W9 m ρ c (Proc.devRef .tc main_v9_1) := (W10_arr m ρ c 1).trans (((dat4 (V9 m ρ) c).arrAt_in 1 rfl _).trans (A_eq4 (V9 m ρ) c 1))

/-- The first layer's product stays as the third region left it until the fifth region reads it. -/
theorem keep_v24_9_6 : W9 m ρ c (Proc.devRef .tc main_v24) = W6 m ρ c (Proc.devRef .tc main_v24) :=
  calc W9 m ρ c (Proc.devRef .tc main_v24)
    _ = W8 m ρ c (Proc.devRef .tc main_v24) := StableHlo.after_of_forall_not_mem (b := Proc.devRef .tc main_v24) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v24) := W8_of_ne m ρ c main_v24 (by decide)
    _ = W6 m ρ c (Proc.devRef .tc main_v24) := StableHlo.after_of_forall_not_mem (b := Proc.devRef .tc main_v24) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The second layer's weight matrix is as launched when the sixth region starts. -/
theorem keep_arg7_10_0 : W10 m ρ c (Proc.devRef .tc main_arg7) = W0 m ρ c (Proc.devRef .tc main_arg7) :=
  calc W10 m ρ c (Proc.devRef .tc main_arg7)
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The second layer's bias is as launched when it is stood up as a row. -/
theorem keep_arg8_13_0 : W13 m ρ c (Proc.devRef .tc main_arg8) = W0 m ρ c (Proc.devRef .tc main_arg8) :=
  calc W13 m ρ c (Proc.devRef .tc main_arg8)
    _ = W12 m ρ c (Proc.devRef .tc main_arg8) := W13_of_ne m ρ c main_arg8 (by decide)
    _ = W11 m ρ c (Proc.devRef .tc main_arg8) := StableHlo.after_of_forall_not_mem (b := Proc.devRef .tc main_arg8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg8) := W11_of_ne m ρ c main_arg8 (by decide)
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The second layer's product stays as the sixth region left it until the last region reads it. -/
theorem keep_v38_14_11 : W14 m ρ c (Proc.devRef .tc main_v38) = W11 m ρ c (Proc.devRef .tc main_v38) :=
  calc W14 m ρ c (Proc.devRef .tc main_v38)
    _ = W13 m ρ c (Proc.devRef .tc main_v38) := StableHlo.after_of_forall_not_mem (b := Proc.devRef .tc main_v38) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_v38) := W13_of_ne m ρ c main_v38 (by decide)
    _ = W11 m ρ c (Proc.devRef .tc main_v38) := StableHlo.after_of_forall_not_mem (b := Proc.devRef .tc main_v38) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Walks

end
-- ==== Proof.Region0.lean ====
import proofs.«170494_j3813930959125_2_alg».proof.Proof.GenP.KernelIdeal.Frame
import proofs.«170494_j3813930959125_2_alg».proof.Proof.Stages
import Idealize.ShloMosaic.Lib.Pipeline.Value

/-!
# Region 0: a tile of edge rows times a weight matrix, plus a bias row

The region walks the `[3200000, 16]` array of edge attributes in four hundred tiles of `8000` rows. At each tile it
multiplies the tile by the whole `[16, 16]` weight matrix (into a zero accumulator, the casts to a narrower float format
being the identity over the extended reals), adds the one-row `[1, 16]` bias array to every row of the product, and writes
the result back as the tile of the same rows of the output. An entry of the result depends on its own row of the left
operand only, so the output array ends holding the product of the WHOLE array with the weight matrix plus the bias row on
every row: every output row lies in exactly the tile `r / 8000`.
-/

noncomputable section

namespace Cert.KernelIdeal.Region0

open Idealize.ShloMosaic Idealize.ShloMosaic.TcCoe Idealize.ShloMosaic.ValueIdx
open Cert.KernelIdeal Cert.KernelIdeal.Gen Cert.KernelIdeal.GenP Cert.Gcn Cert.Layers Cert.RowTile
open Idealize.ShloMosaic.Pipeline (Dat)

variable (V : (c : Dev nD) → (b : Ref sig .tc) → Buf (Elt Ideal) ((c : Thread nD τ).loc b)) (c : Dev nD)

/-- The tile the body stores: the product of the tile of rows it loaded with the weight matrix it loaded, plus the
    bias row it loaded on every row. -/
theorem pay_eq (x0 : Vec Ideal S8000x16 .f32) (x1 : Vec Ideal S16x16 .f32) (x2 : Vec Ideal S1x16 .f32) :
    k0_pay1 x0 x1 x2
      = addRow (M := 8000) (N := 16) (rowsTimes (M := 8000) (K := 16) (N := 16) x0 x1) (rowVec (N := 16) x2) := by
  have h1 : FloatOps.matmul dot_S8000x16_S16x16_S8000x16_1_0_0_1_n_n none
        (truncf .bf16 x0 bitsLt_bf16_f32 : FVec Ideal S8000x16 .bf16) (truncf .bf16 x1 bitsLt_bf16_f32 : FVec Ideal S16x16 .bf16)
        (constant S8000x16 .f32 0x00000000#32)
      = rowsTimes (M := 8000) (K := 16) (N := 16) x0 x1 :=
    Cert.Layers.matmul_zero_eq dot_S8000x16_S16x16_S8000x16_1_0_0_1_n_n ⟨rfl, rfl, rfl, rfl, rfl, rfl⟩ none _ _
  have h2 : shapeCast S1x16 x2 shapeCasts_S1x16_S1x16 = x2 := shapeCast_self x2 _
  have h3 := addf_bcastRow (M := 8000) (N := 16) (rowsTimes (M := 8000) (K := 16) (N := 16) x0 x1) x2 broadcasts_S1x16_S8000x16
  unfold k0_pay1
  exact (congrArg₂ (fun (a : FVec Ideal S8000x16 .f32) (b : FVec Ideal S1x16 .f32) =>
    addf a (broadcastTo S8000x16 b broadcasts_S1x16_S8000x16)) h1 h2).trans h3

/-- What the body leaves in the output's staging buffer: that function of the three input blocks. -/
theorem out_eq (x0 : Vec Ideal S8000x16 .f32) (x1 : Vec Ideal S16x16 .f32) (x2 : Vec Ideal S1x16 .f32) :
    out0_3 x0 x1 x2
      = addRow (M := 8000) (N := 16) (rowsTimes (M := 8000) (K := 16) (N := 16) x0 x1) (rowVec (N := 16) x2) := by
  unfold out0_3
  rw [View.canon_unit_zero zeros2]
  rw [View.ld_unit_zero (S := S8000x16) zeros2, View.ld_unit_zero (S := S16x16) zeros2, View.ld_unit_zero (S := S1x16) zeros2]
  exact pay_eq x0 x1 x2

/-- An entry of a tile's result is the entry of the whole array's result in the row the tile's row is, the weights
    and the bias being the same in the column read. -/
theorem tile_entry (A : Mat 3200000 16) (W : Mat 16 16) (B : Mat 1 16) (At : Mat 8000 16) (Wt : Mat 16 16) (Bt : Mat 1 16)
    (p : Fin 8000) (r : Fin 3200000) (q : Fin 16)
    (hA : ∀ k : Fin 16, At (ix2 p k) = A (ix2 r k)) (hW : ∀ k : Fin 16, Wt (ix2 k q) = W (ix2 k q))
    (hB : Bt (ix2 (0 : Fin 1) q) = B (ix2 (0 : Fin 1) q)) :
    addRow (rowsTimes At Wt) (rowVec Bt) (ix2 p q) = addRow (rowsTimes A W) (rowVec B) (ix2 r q) := by
  have h1 : rowsTimes At Wt (ix2 p q) = rowsTimes A W (ix2 r q) := by
    refine (rowsTimes_row A At Wt p r hA q).trans ?_
    rw [rowsTimes_apply, rowsTimes_apply]
    exact Finset.sum_congr rfl fun k _ => by rw [hW k]
  refine (addRow_row (rowsTimes A W) (rowsTimes At Wt) (rowVec Bt) p r q h1).trans ?_
  rw [addRow_apply, addRow_apply, rowVec_apply, rowVec_apply, hB]

/-- The printed index maps, decided over the four hundred grid points: the tile of rows and the output tile are the
    point's own, in the one block column; the weight matrix and the bias row are always their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The whole output array: every row of the region's first argument times the weight matrix, plus the bias row. -/
abbrev G : Mat 3200000 16 :=
  addRow (M := 3200000) (N := 16) (rowsTimes (M := 3200000) (K := 16) (N := 16) (V c main_arg2) (V c main_arg3)) (rowVec (N := 16) (V c main_v4))

/-- WHAT POINT `t` WRITES BACK is tile `t` of the whole array's result. -/
theorem flushed_eq (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3, out_eq (iblk0 V c 0 t) (iblk0 V c 1 t) (iblk0 V c 2 t)]
  obtain ⟨e0, e1, e2, e3, e4, e5, e6, e7⟩ := idx_facts t
  have ht : t.val < 400 := Nat.lt_of_lt_of_eq t.isLt N_0
  funext j
  obtain ⟨p, q, rfl⟩ : ∃ (p : Fin 8000) (q : Fin 16), j = ix2 p q := ⟨j 0, j 1, eq_ix2 j⟩
  have hp : p.val < 8000 := p.isLt
  have hq : q.val < 16 := q.isLt
  have hr : t.val * 8000 + p.val < 3200000 := by omega
  show addRow (M := 8000) (N := 16) (rowsTimes (M := 8000) (K := 16) (N := 16) (iblk0 V c 0 t) (iblk0 V c 1 t))
        (rowVec (N := 16) (iblk0 V c 2 t)) (ix2 p q)
      = G V c (((cfg0.win 3).blk t).view.emb (ix2 p q))
  have he : ((cfg0.win 3).blk t).view.emb (ix2 p q) = (ix2 (⟨t.val * 8000 + p.val, hr⟩ : Fin 3200000) q : S3200000x16.Idx) := by
    funext a; apply Fin.ext
    match a with
    | ⟨0, _⟩ => show win0_3.index t (0 : Fin 2) * 8000 + 1 * p.val = t.val * 8000 + p.val; omega
    | ⟨1, _⟩ => show win0_3.index t (1 : Fin 2) * 16 + 1 * q.val = q.val; omega
  rw [he]
  refine tile_entry (V c main_arg2) (V c main_arg3) (V c main_v4) (iblk0 V c 0 t) (iblk0 V c 1 t) (iblk0 V c 2 t)
    p ⟨t.val * 8000 + p.val, hr⟩ q (fun k => ?_) (fun k => ?_) ?_
  · have hk : k.val < 16 := k.isLt
    show V c main_arg2 (((cfg0.win 0).blk t).view.emb (ix2 p k)) = V c main_arg2 (ix2 (⟨t.val * 8000 + p.val, hr⟩ : Fin 3200000) k)
    refine congrArg (V c main_arg2) ?_
    funext a; apply Fin.ext
    match a with
    | ⟨0, _⟩ => show win0_0.index t (0 : Fin 2) * 8000 + 1 * p.val = t.val * 8000 + p.val; omega
    | ⟨1, _⟩ => show win0_0.index t (1 : Fin 2) * 16 + 1 * k.val = k.val; omega
  · have hk : k.val < 16 := k.isLt
    show V c main_arg3 (((cfg0.win 1).blk t).view.emb (ix2 k q)) = V c main_arg3 (ix2 k q)
    refine congrArg (V c main_arg3) ?_
    funext a; apply Fin.ext
    match a with
    | ⟨0, _⟩ => show win0_1.index t (0 : Fin 2) * 16 + 1 * k.val = k.val; omega
    | ⟨1, _⟩ => show win0_1.index t (1 : Fin 2) * 16 + 1 * q.val = q.val; omega
  · show V c main_v4 (((cfg0.win 2).blk t).view.emb (ix2 (0 : Fin 1) q)) = V c main_v4 (ix2 (0 : Fin 1) q)
    refine congrArg (V c main_v4) ?_
    funext a; apply Fin.ext
    match a with
    | ⟨0, _⟩ => show win0_2.index t (0 : Fin 2) * 1 + 1 * 0 = 0; omega
    | ⟨1, _⟩ => show win0_2.index t (1 : Fin 2) * 16 + 1 * q.val = q.val; omega

/-- An index of the output array is in point `t`'s tile iff each coordinate is in the tile's range on its axis. -/
theorem mem_blk (t : Fin cfg0.N) (i : S3200000x16.Idx) :
    i ∈ ((cfg0.win 3).blk t).view.set ↔ ∀ a : Fin 2, win0_3.index t a * S8000x16.size a ≤ (i a).val ∧ (i a).val < win0_3.index t a * S8000x16.size a + S8000x16.size a := by
  show i ∈ ((View.whole main_v5).slice (win0_3.rect t)).set ↔ _
  rw [View.set_slice_whole, Rect.mem_set_unit]
  exact Iff.rfl

/-- Every index of the output array is in the tile of the point `row / 8000`. -/
theorem cover (i : S3200000x16.Idx) : ∃ t : Fin cfg0.N, (cfg0.win 3).flush t = true ∧ i ∈ ((cfg0.win 3).blk t).view.set := by
  have hi0 : (i 0).val < 3200000 := (i 0).isLt
  have hi1 : (i 1).val < 16 := (i 1).isLt
  have hN : (i 0).val / 8000 < cfg0.N := Nat.lt_of_lt_of_eq (show (i 0).val / 8000 < 400 by omega) N_0.symm
  obtain ⟨e0, e1, e2, e3, e4, e5, e6, e7⟩ := idx_facts ⟨(i 0).val / 8000, hN⟩
  have e6' : win0_3.index ⟨(i 0).val / 8000, hN⟩ (0 : Fin 2) = (i 0).val / 8000 := e6
  refine ⟨⟨(i 0).val / 8000, hN⟩, flush0_3 _, ?_⟩
  rw [mem_blk]
  intro a
  match a with
  | ⟨0, _⟩ => show win0_3.index ⟨(i 0).val / 8000, hN⟩ (0 : Fin 2) * 8000 ≤ (i 0).val ∧ (i 0).val < win0_3.index ⟨(i 0).val / 8000, hN⟩ (0 : Fin 2) * 8000 + 8000; omega
  | ⟨1, _⟩ => show win0_3.index ⟨(i 0).val / 8000, hN⟩ (1 : Fin 2) * 16 ≤ (i 1).val ∧ (i 1).val < win0_3.index ⟨(i 0).val / 8000, hN⟩ (1 : Fin 2) * 16 + 16; omega

/-- THE OUTPUT ARRAY after the region: every row of the region's first argument times the weight matrix, plus the
    bias row. -/
theorem final0 : (dat0 (F := Ideal) V c).arrAt 3 cfg0.N
    = addRow (M := 3200000) (N := 16) (rowsTimes (M := 3200000) (K := 16) (N := 16) (V c main_arg2) (V c main_arg3))
        (rowVec (N := 16) (V c main_v4)) :=
  (dat0 (F := Ideal) V c).arrAt_eq_of_cover 3 (G V c) (fun t _ => flushed_eq V c t) cover

end Cert.KernelIdeal.Region0

end
-- ==== Proof.Region1.lean ====
import proofs.«170494_j3813930959125_2_alg».proof.Proof.GenP.KernelIdeal.Frame
import proofs.«170494_j3813930959125_2_alg».proof.Proof.Stages
import Idealize.ShloMosaic.Lib.ValueIdx
import Idealize.ShloMosaic.Lib.Pipeline.Value

/-!
# Region 1: the normaliser of every node and its square

The region turns the degree array of 100000 nodes by 16 channels into two arrays, entry by entry: the normaliser
`1/sqrt(|deg + 1| + eps)` where `deg + 1 > 0` and zero elsewhere, and that value times itself. It works on 10 blocks of
10000 consecutive rows: at block `t` the input and both outputs are read or written through rows
`10000 t … 10000 t + 9999`, all 16 channels. So what block `t` writes back is block `t` of the entrywise function of the
whole array, the 10 blocks cover every row, and each output array ends holding that function of the input array.
-/

noncomputable section

open Idealize.ShloMosaic Idealize.ShloMosaic.TcCoe Idealize.ShloMosaic.ValueIdx Cert.KernelIdeal Cert.KernelIdeal.Gen Cert.KernelIdeal.GenP Cert.Gcn
open Idealize.ShloMosaic.Pipeline (Dat)

namespace Cert.KernelIdeal.Region1

variable (V : (c : Dev nD) → (b : Ref sig .tc) → Buf (Elt Ideal) ((c : Thread nD τ).loc b)) (c : Dev nD)

/-- The zero offset of a block inside its staging buffer. -/
theorem hz : (![0, 0] : Fin 2 → Nat) = fun _ => 0 := funext fun a => by fin_cases a <;> rfl

/-- The first stored value at an entry is the normaliser of the loaded block's entry: the body's operations, each acting
    entry by entry, are the normaliser's own. -/
theorem pay1_apply (x : Vec Ideal S10000x16 .f32) (j : S10000x16.Idx) : k1_pay1 x j = dinvAt (x j) := by
  unfold k1_pay1 dinvAt degAt
  simp only [shapeCast_self]
  rfl

/-- The second stored value at an entry is the first times itself. -/
theorem pay2_apply (x : Vec Ideal S10000x16 .f32) (j : S10000x16.Idx) : k1_pay2 x j = dinvAt (x j) * dinvAt (x j) := by
  unfold k1_pay2
  show k1_pay1 x j * k1_pay1 x j = _
  rw [pay1_apply]

/-- The normaliser of an array read at a place that is another place: the normaliser array there. -/
theorem dinv_at (a : Mat 100000 16) {i0 i : S100000x16.Idx} (h : i0 = i) : dinvAt (a i0) = dinv a i := by
  rw [h, dinv_apply]

/-- The same for the squared normaliser. -/
theorem dinvSq_at (a : Mat 100000 16) {i0 i : S100000x16.Idx} (h : i0 = i) : dinvAt (a i0) * dinvAt (a i0) = dinvSq a i := by
  rw [h, dinvSq_apply]

/-- The index maps over the grid: at every point the input sits at either output's block, and each output's block
    is (point, 0). -/
theorem idx_facts : ∀ t : Fin cfg1.N,
    win1_0.index t (0 : Fin 2) = win1_1.index t (0 : Fin 2) ∧ win1_0.index t (1 : Fin 2) = win1_1.index t (1 : Fin 2)
    ∧ win1_0.index t (0 : Fin 2) = win1_2.index t (0 : Fin 2) ∧ win1_0.index t (1 : Fin 2) = win1_2.index t (1 : Fin 2)
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back through output 1 is block `t` of the normaliser of the whole array. -/
theorem flushed1_eq (t : Fin cfg1.N) :
    (dat1 (F := Ideal) V c).flushed 1 t
      = ((cfg1.win 1).blk t).view.read (Elt Ideal) (dinv (n := 100000) (c := 16) (V c main_v8)) := by
  show (cfg1.win 1).cut (grid1.coords t) ((dat1 (F := Ideal) V c).after 1 t) = _
  rw [after1_1]
  unfold out1_1
  rw [View.canon_unit_zero hz]
  simp only [View.ld_unit_zero (S := S10000x16) hz]
  obtain ⟨e10, e11, e20, e21, -, -, -, -⟩ := idx_facts t
  funext j
  have hj0 : (j 0).val < 10000 := (j 0).isLt
  have hj1 : (j 1).val < 16 := (j 1).isLt
  have h0 : ((cfg1.win 0).blk t).view.emb j = ((cfg1.win 1).blk t).view.emb j := by
    funext a; apply Fin.ext
    match a with
    | ⟨0, _⟩ => show win1_0.index t (0 : Fin 2) * 10000 + 1 * (j 0).val = win1_1.index t (0 : Fin 2) * 10000 + 1 * (j 0).val; omega
    | ⟨1, _⟩ => show win1_0.index t (1 : Fin 2) * 16 + 1 * (j 1).val = win1_1.index t (1 : Fin 2) * 16 + 1 * (j 1).val; omega
  exact (pay1_apply (iblk1 V c 0 t) j).trans (dinv_at (V c main_v8) h0)

/-- A row and channel lie in point `t`'s block of output 1 iff each coordinate is in the block's range on its axis. -/
theorem mem_blk1 (t : Fin cfg1.N) (i : S100000x16.Idx) :
    i ∈ ((cfg1.win 1).blk t).view.set ↔ ∀ a : Fin 2, win1_1.index t a * S10000x16.size a ≤ (i a).val ∧ (i a).val < win1_1.index t a * S10000x16.size a + S10000x16.size a := by
  show i ∈ ((View.whole main_v9_0).slice (win1_1.rect t)).set ↔ _
  rw [View.set_slice_whole, Rect.mem_set_unit]
  exact Iff.rfl

/-- Every entry of output 1 is written back: row `r` lies in the block of point `r / 10000`. -/
theorem cover1 (i : S100000x16.Idx) :
    ∃ t : Fin cfg1.N, (cfg1.win 1).flush t = true ∧ i ∈ ((cfg1.win 1).blk t).view.set := by
  have hN : grid1.N = 10 := N_1
  have hi0 : (i 0).val < 100000 := (i 0).isLt
  have hi1 : (i 1).val < 16 := (i 1).isLt
  obtain ⟨t, ht⟩ : ∃ t : Fin cfg1.N, t.val = (i 0).val / 10000 :=
    ⟨⟨(i 0).val / 10000, by show (i 0).val / 10000 < grid1.N; rw [hN]; omega⟩, rfl⟩
  obtain ⟨-, -, -, -, p0, p1, q0, q1⟩ := idx_facts t
  refine ⟨t, flush1_1 t, ?_⟩
  rw [mem_blk1]
  intro a
  match a with
  | ⟨0, _⟩ => show win1_1.index t (0 : Fin 2) * 10000 ≤ (i 0).val ∧ (i 0).val < win1_1.index t (0 : Fin 2) * 10000 + 10000; omega
  | ⟨1, _⟩ => show win1_1.index t (1 : Fin 2) * 16 ≤ (i 1).val ∧ (i 1).val < win1_1.index t (1 : Fin 2) * 16 + 16; omega

/-- What point `t` writes back through output 2 is block `t` of the squared normaliser of the whole array. -/
theorem flushed2_eq (t : Fin cfg1.N) :
    (dat1 (F := Ideal) V c).flushed 2 t
      = ((cfg1.win 2).blk t).view.read (Elt Ideal) (dinvSq (n := 100000) (c := 16) (V c main_v8)) := by
  show (cfg1.win 2).cut (grid1.coords t) ((dat1 (F := Ideal) V c).after 2 t) = _
  rw [after1_2]
  unfold out1_2
  rw [View.canon_unit_zero hz]
  simp only [View.ld_unit_zero (S := S10000x16) hz]
  obtain ⟨e10, e11, e20, e21, -, -, -, -⟩ := idx_facts t
  funext j
  have hj0 : (j 0).val < 10000 := (j 0).isLt
  have hj1 : (j 1).val < 16 := (j 1).isLt
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 16 + 1 * (j 1).val = win1_2.index t (1 : Fin 2) * 16 + 1 * (j 1).val; omega
  exact (pay2_apply (iblk1 V c 0 t) j).trans (dinvSq_at (V c main_v8) h0)

/-- A row and channel lie in point `t`'s block of output 2 iff each coordinate is in the block's range on its axis. -/
theorem mem_blk2 (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v9_1).slice (win1_2.rect t)).set ↔ _
  rw [View.set_slice_whole, Rect.mem_set_unit]
  exact Iff.rfl

/-- Every entry of output 2 is written back: row `r` lies in the block of point `r / 10000`. -/
theorem cover2 (i : S100000x16.Idx) :
    ∃ t : Fin cfg1.N, (cfg1.win 2).flush t = true ∧ i ∈ ((cfg1.win 2).blk t).view.set := by
  have hN : grid1.N = 10 := N_1
  have hi0 : (i 0).val < 100000 := (i 0).isLt
  have hi1 : (i 1).val < 16 := (i 1).isLt
  obtain ⟨t, ht⟩ : ∃ t : Fin cfg1.N, t.val = (i 0).val / 10000 :=
    ⟨⟨(i 0).val / 10000, by show (i 0).val / 10000 < grid1.N; rw [hN]; omega⟩, rfl⟩
  obtain ⟨-, -, -, -, p0, p1, q0, q1⟩ := idx_facts t
  refine ⟨t, flush1_2 t, ?_⟩
  rw [mem_blk2]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- The first output array after the region: the normaliser of the degree array as the region found it. -/
theorem final1_dinv : (dat1 (F := Ideal) V c).arrAt 1 cfg1.N = dinv (n := 100000) (c := 16) (V c main_v8) :=
  (dat1 (F := Ideal) V c).arrAt_eq_of_cover 1 _ (fun t _ => flushed1_eq V c t) cover1

/-- The second output array after the region: the squared normaliser of the degree array as the region found it. -/
theorem final1_sq : (dat1 (F := Ideal) V c).arrAt 2 cfg1.N = dinvSq (n := 100000) (c := 16) (V c main_v8) :=
  (dat1 (F := Ideal) V c).arrAt_eq_of_cover 2 _ (fun t _ => flushed2_eq V c t) cover2

end Cert.KernelIdeal.Region1

end
-- ==== Proof.Fold1.lean ====
import proofs.«170494_j3813930959125_2_alg».proof.Proof.GenP.KernelIdeal.Frame
import proofs.«170494_j3813930959125_2_alg».proof.Proof.Stages
import proofs.«170494_j3813930959125_2_alg».proof.Proof.Walks
import proofs.«170494_j3813930959125_2_alg».proof.Proof.Region0
import proofs.«170494_j3813930959125_2_alg».proof.Proof.Region1
import Idealize.ShloMosaic.Lib.StableHlo.Run
import Idealize.ShloMosaic.Lib.Pipeline.Value

/-!
# The kernel's value, first part: edge weights, degrees, normalisers

Read off the frame's fold at `F := Ideal`. The edges' sources and targets are the two rows of the index argument; a
source or target index below zero is wrapped round by the number of nodes before a node array is read at it, and the
sums over arriving edges start from an array of zeros and use the targets as they are. These moves along edges are named
here in the printed program's own operations (`srcOf`, `dstOf`: read a node array at every edge's source / target;
`collect`: add an edge array up at every edge's target). Then: the first region leaves the edge weights
`edge_attr · We + be`; the host adds them up at the targets; the second region leaves the normaliser and its square.
-/

set_option maxRecDepth 16384

noncomputable section

namespace Cert.KernelIdeal.Fold

open Idealize.ShloMosaic Idealize.ShloMosaic.TcCoe Idealize.ShloMosaic.ValueIdx Idealize.ShloMosaic.StableHlo Idealize.SL.Sem
open Idealize.ShloMosaic.Pipeline (Dat Cfg Window)
open Cert.KernelIdeal Cert.KernelIdeal.Gen Cert.KernelIdeal.GenP Cert.KernelIdeal.Walks Cert.Gcn Cert.Layers Cert.RowTile

variable (m : (ℓ : Loc nD τ sig) → Buf (Elt Ideal) ℓ) (ρ : Dev nD → PrngReg) (c : Dev nD)

/-- The edges' sources: row 0 of the index argument. -/
def srcRaw (x1 : (⟨S2x3200000, .i32⟩ : BufTy).Contents (Elt Ideal)) : (⟨S3200000, .i32⟩ : BufTy).Contents (Elt Ideal) :=
  shapeCast _ (extractStridedSlice S1x3200000 ![0, 0] x1 slices_S2x3200000_S1x3200000_0_0) shapeCasts_S1x3200000_S3200000
/-- The edges' targets: row 1. -/
def dstRaw (x1 : (⟨S2x3200000, .i32⟩ : BufTy).Contents (Elt Ideal)) : (⟨S3200000, .i32⟩ : BufTy).Contents (Elt Ideal) :=
  shapeCast _ (extractStridedSlice S1x3200000 ![1, 0] x1 slices_S2x3200000_S1x3200000_1_0) shapeCasts_S1x3200000_S3200000
/-- An index vector as a column of index words, negative entries wrapped round by the number of nodes. -/
def wrapCol (s : (⟨S3200000, .i32⟩ : BufTy).Contents (Elt Ideal)) : (⟨S3200000x1, .i32⟩ : BufTy).Contents (Elt Ideal) :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)
/-- An index vector as a column of index words, as it is. -/
def rawCol (s : (⟨S3200000, .i32⟩ : BufTy).Contents (Elt Ideal)) : (⟨S3200000x1, .i32⟩ : BufTy).Contents (Elt Ideal) :=
  broadcastInDim S3200000x1 ![0] bcast_S3200000_S3200000x1_0 s
/-- A node array of zeros. -/
def zerosN : (⟨S100000x16, .f32⟩ : BufTy).Contents (Elt Ideal) :=
  broadcastInDim S100000x16 ![] bcast_S_S100000x16 (constant (F := Ideal) S_ .f32 0x00000000#32)

/-- A node array read at every edge's source. -/
def srcOf (x1 : (⟨S2x3200000, .i32⟩ : BufTy).Contents (Elt Ideal)) (a : Mat 100000 16) : Mat 3200000 16 :=
  Host.gather gather_S100000x16_S3200000x1_S3200000x16_1_0_n_n_0_1_116 a (wrapCol (srcRaw x1))
/-- A node array read at every edge's target. -/
def dstOf (x1 : (⟨S2x3200000, .i32⟩ : BufTy).Contents (Elt Ideal)) (a : Mat 100000 16) : Mat 3200000 16 :=
  Host.gather gather_S100000x16_S3200000x1_S3200000x16_1_0_n_n_0_1_116 a (wrapCol (dstRaw x1))
/-- An edge array added up at every edge's target, from zeros. -/
def collect (x1 : (⟨S2x3200000, .i32⟩ : BufTy).Contents (Elt Ideal)) (u : Mat 3200000 16) : Mat 100000 16 :=
  Host.scatterAdd (F := Ideal) (φ := .f32) scatter_S100000x16_S3200000x1_S3200000x16_1_0_0_1 zerosN (rawCol (dstRaw x1)) u

/-- The arguments as launched on device `c`. -/
abbrev a0 : Mat 100000 128 := m ((c.tc : Thread nD τ).loc main_arg0)
abbrev a1 : (⟨S2x3200000, .i32⟩ : BufTy).Contents (Elt Ideal) := m ((c.tc : Thread nD τ).loc main_arg1)
abbrev a2 : Mat 3200000 16 := m ((c.tc : Thread nD τ).loc main_arg2)
abbrev a3 : Mat 16 16 := m ((c.tc : Thread nD τ).loc main_arg3)
abbrev a4 : Row 16 := m ((c.tc : Thread nD τ).loc main_arg4)
abbrev a5 : Mat 128 16 := m ((c.tc : Thread nD τ).loc main_arg5)
abbrev a6 : Row 16 := m ((c.tc : Thread nD τ).loc main_arg6)
abbrev a7 : Mat 16 16 := m ((c.tc : Thread nD τ).loc main_arg7)
abbrev a8 : Row 16 := m ((c.tc : Thread nD τ).loc main_arg8)

/-- The edge weights and the degrees they add up to, as functions of the arguments. -/
def ew : Mat 3200000 16 := addRow (rowsTimes (a2 m c) (a3 m c)) (a4 m c)
def deg : Mat 100000 16 := collect (a1 m c) (ew m c)

/-! ## What the first stretch of host operations leaves -/

theorem W1_v1 : W1 m ρ c (Proc.devRef .tc main_v1) = srcRaw (a1 m c) := by
  show StableHlo.after hostOps0 (W0 m ρ c) (Proc.devRef .tc main_v1) = _
  after_results_simp <;> rfl
theorem W1_v3 : W1 m ρ c (Proc.devRef .tc main_v3) = dstRaw (a1 m c) := by
  show StableHlo.after hostOps0 (W0 m ρ c) (Proc.devRef .tc main_v3) = _
  after_results_simp <;> rfl
theorem W1_v4 : W1 m ρ c (Proc.devRef .tc main_v4) = shapeCast S1x16 (a4 m c) shapeCasts_S16_S1x16 := by
  show StableHlo.after hostOps0 (W0 m ρ c) (Proc.devRef .tc main_v4) = _
  after_results_simp <;> rfl
theorem W1_arg2 : W1 m ρ c (Proc.devRef .tc main_arg2) = a2 m c := (keep_arg2_1_0 m ρ c).trans rfl
theorem W1_arg3 : W1 m ρ c (Proc.devRef .tc main_arg3) = a3 m c := (keep_arg3_1_0 m ρ c).trans rfl

/-! ## The first region: the edge weights -/

theorem W2_v5 : W2 m ρ c (Proc.devRef .tc main_v5) = ew m c := by
  refine (W2_arr m ρ c 3).trans ((Region0.final0 (V1 m ρ) c).trans ?_)
  show addRow (M := 3200000) (N := 16) (rowsTimes (M := 3200000) (K := 16) (N := 16) (W1 m ρ c (Proc.devRef .tc main_arg2)) (W1 m ρ c (Proc.devRef .tc main_arg3)))
      (rowVec (N := 16) (W1 m ρ c (Proc.devRef .tc main_v4))) = _
  rw [W1_arg2 m ρ c, W1_arg3 m ρ c, W1_v4 m ρ c, rowVec_shapeCast]
  rfl

/-! ## The degrees: the edge weights added up at the targets -/

theorem W3_v8 : W3 m ρ c (Proc.devRef .tc main_v8) = deg m c := by
  have e : W3 m ρ c (Proc.devRef .tc main_v8)
      = Host.scatterAdd (F := Ideal) (φ := .f32) scatter_S100000x16_S3200000x1_S3200000x16_1_0_0_1 zerosN
          (rawCol (W2 m ρ c (Proc.devRef .tc main_v3))) (W2 m ρ c (Proc.devRef .tc main_v5)) := by
    show StableHlo.after hostOps1 (W2 m ρ c) (Proc.devRef .tc main_v8) = _
    after_results_simp <;> rfl
  rw [e, keep_v3_2_1 m ρ c, W1_v3 m ρ c, W2_v5 m ρ c]
  rfl

/-! ## The second region: the normaliser and its square -/

theorem W4_v9_0 : W4 m ρ c (Proc.devRef .tc main_v9_0) = dinv (deg m c) := by
  refine (W4_arr m ρ c 1).trans ((Region1.final1_dinv (V3 m ρ) c).trans ?_)
  show dinv (n := 100000) (c := 16) (W3 m ρ c (Proc.devRef .tc main_v8)) = _
  rw [W3_v8 m ρ c]
theorem W4_v9_1 : W4 m ρ c (Proc.devRef .tc main_v9_1) = dinvSq (deg m c) := by
  refine (W4_arr m ρ c 2).trans ((Region1.final1_sq (V3 m ρ) c).trans ?_)
  show dinvSq (n := 100000) (c := 16) (W3 m ρ c (Proc.devRef .tc main_v8)) = _
  rw [W3_v8 m ρ c]

end Cert.KernelIdeal.Fold

end
-- ==== Proof.Region2.lean ====
import proofs.«170494_j3813930959125_2_alg».proof.Proof.GenP.KernelIdeal.Frame
import proofs.«170494_j3813930959125_2_alg».proof.Proof.Stages
import Idealize.ShloMosaic.Lib.Pipeline.Value

/-!
# Region 2: a tile of rows times the whole weight matrix

The region walks the `[100000, 128]` array of node rows in ten tiles of `10000` rows. At each tile it multiplies the tile
by the whole `[128, 16]` weight matrix (into a zero accumulator, the casts to a narrower float format being the identity
over the extended reals) and writes the `[10000, 16]` product back as the tile of the same rows of the output. An entry
of a product depends on its own row of the left operand only, so the output array ends holding the product of the WHOLE
array of rows with the weight matrix: every output row lies in exactly the tile `r / 10000`.
-/

noncomputable section

namespace Cert.KernelIdeal.Region2

open Idealize.ShloMosaic Idealize.ShloMosaic.TcCoe Idealize.ShloMosaic.ValueIdx
open Cert.KernelIdeal Cert.KernelIdeal.Gen Cert.KernelIdeal.GenP Cert.Gcn Cert.Layers Cert.RowTile
open Idealize.ShloMosaic.Pipeline (Dat)

variable (V : (c : Dev nD) → (b : Ref sig .tc) → Buf (Elt Ideal) ((c : Thread nD τ).loc b)) (c : Dev nD)

/-- The tile the body stores is the product of the tile of rows it loaded with the weight matrix it loaded. -/
theorem pay_eq (x0 : Vec Ideal S10000x128 .f32) (x1 : Vec Ideal S128x16 .f32) :
    k2_pay1 x0 x1 = rowsTimes (M := 10000) (K := 128) (N := 16) x0 x1 := by
  unfold k2_pay1
  exact Cert.Layers.matmul_zero_eq dot_S10000x128_S128x16_S10000x16_1_0_0_1_n_n ⟨rfl, rfl, rfl, rfl, rfl, rfl⟩ none _ _

/-- What the body leaves in the output's staging buffer: that product of the two input blocks. -/
theorem out_eq (x0 : Vec Ideal S10000x128 .f32) (x1 : Vec Ideal S128x16 .f32) :
    out2_2 x0 x1 = rowsTimes (M := 10000) (K := 128) (N := 16) x0 x1 := by
  unfold out2_2
  rw [View.canon_unit_zero zeros2]
  rw [View.ld_unit_zero (S := S10000x128) zeros2, View.ld_unit_zero (S := S128x16) zeros2]
  exact pay_eq x0 x1

/-- An entry of a tile's product is the entry of the whole array's product in the row the tile's row is, the weights
    being the same in the column read. -/
theorem tile_entry (A : Mat 100000 128) (W : Mat 128 16) (At : Mat 10000 128) (Wt : Mat 128 16)
    (p : Fin 10000) (r : Fin 100000) (q : Fin 16)
    (hA : ∀ k : Fin 128, At (ix2 p k) = A (ix2 r k)) (hW : ∀ k : Fin 128, Wt (ix2 k q) = W (ix2 k q)) :
    rowsTimes At Wt (ix2 p q) = rowsTimes A W (ix2 r q) := by
  refine (rowsTimes_row A At Wt p r hA q).trans ?_
  rw [rowsTimes_apply, rowsTimes_apply]
  exact Finset.sum_congr rfl fun k _ => by rw [hW k]

/-- The printed index maps, decided over the ten grid points: the tile of rows and the output tile are the point's own,
    in the one block column; the weight matrix is always its one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The whole output array: every row of the region's first argument times the weight matrix. -/
abbrev G : Mat 100000 16 := rowsTimes (M := 100000) (K := 128) (N := 16) (V c main_arg0) (V c main_arg5)

/-- WHAT POINT `t` WRITES BACK is tile `t` of the whole array's product. -/
theorem flushed_eq (t : Fin cfg2.N) :
    (dat2 (F := Ideal) V c).flushed 2 t = ((cfg2.win 2).blk t).view.read (Elt Ideal) (G V c) := by
  show (cfg2.win 2).cut (grid2.coords t) ((dat2 (F := Ideal) V c).after 2 t) = _
  rw [after2_2, out_eq (iblk2 V c 0 t) (iblk2 V c 1 t)]
  obtain ⟨e0, e1, e2, e3, e4, e5⟩ := idx_facts t
  have ht : t.val < 10 := Nat.lt_of_lt_of_eq t.isLt N_2
  funext j
  obtain ⟨p, q, rfl⟩ : ∃ (p : Fin 10000) (q : Fin 16), j = ix2 p q := ⟨j 0, j 1, eq_ix2 j⟩
  have hp : p.val < 10000 := p.isLt
  have hq : q.val < 16 := q.isLt
  have hr : t.val * 10000 + p.val < 100000 := by omega
  show rowsTimes (M := 10000) (K := 128) (N := 16) (iblk2 V c 0 t) (iblk2 V c 1 t) (ix2 p q)
      = G V c (((cfg2.win 2).blk t).view.emb (ix2 p q))
  have he : ((cfg2.win 2).blk t).view.emb (ix2 p q) = (ix2 (⟨t.val * 10000 + p.val, hr⟩ : Fin 100000) q : S100000x16.Idx) := by
    funext a; apply Fin.ext
    match a with
    | ⟨0, _⟩ => show win2_2.index t (0 : Fin 2) * 10000 + 1 * p.val = t.val * 10000 + p.val; omega
    | ⟨1, _⟩ => show win2_2.index t (1 : Fin 2) * 16 + 1 * q.val = q.val; omega
  rw [he]
  refine tile_entry (V c main_arg0) (V c main_arg5) (iblk2 V c 0 t) (iblk2 V c 1 t) p ⟨t.val * 10000 + p.val, hr⟩ q
    (fun k => ?_) (fun k => ?_)
  · have hk : k.val < 128 := k.isLt
    show V c main_arg0 (((cfg2.win 0).blk t).view.emb (ix2 p k)) = V c main_arg0 (ix2 (⟨t.val * 10000 + p.val, hr⟩ : Fin 100000) k)
    refine congrArg (V c main_arg0) ?_
    funext a; apply Fin.ext
    match a with
    | ⟨0, _⟩ => show win2_0.index t (0 : Fin 2) * 10000 + 1 * p.val = t.val * 10000 + p.val; omega
    | ⟨1, _⟩ => show win2_0.index t (1 : Fin 2) * 128 + 1 * k.val = k.val; omega
  · have hk : k.val < 128 := k.isLt
    show V c main_arg5 (((cfg2.win 1).blk t).view.emb (ix2 k q)) = V c main_arg5 (ix2 k q)
    refine congrArg (V c main_arg5) ?_
    funext a; apply Fin.ext
    match a with
    | ⟨0, _⟩ => show win2_1.index t (0 : Fin 2) * 128 + 1 * k.val = k.val; omega
    | ⟨1, _⟩ => show win2_1.index t (1 : Fin 2) * 16 + 1 * q.val = q.val; omega

/-- An index of the output array is in point `t`'s tile iff each coordinate is in the tile's range on its axis. -/
theorem mem_blk (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v24).slice (win2_2.rect t)).set ↔ _
  rw [View.set_slice_whole, Rect.mem_set_unit]
  exact Iff.rfl

/-- Every index of the output array is in the tile of the point `row / 10000`. -/
theorem cover (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  have hN : (i 0).val / 10000 < cfg2.N := Nat.lt_of_lt_of_eq (show (i 0).val / 10000 < 10 by omega) N_2.symm
  obtain ⟨e0, e1, e2, e3, e4, e5⟩ := idx_facts ⟨(i 0).val / 10000, hN⟩
  have e4' : win2_2.index ⟨(i 0).val / 10000, hN⟩ (0 : Fin 2) = (i 0).val / 10000 := e4
  refine ⟨⟨(i 0).val / 10000, hN⟩, flush2_2 _, ?_⟩
  rw [mem_blk]
  intro a
  match a with
  | ⟨0, _⟩ => show win2_2.index ⟨(i 0).val / 10000, hN⟩ (0 : Fin 2) * 10000 ≤ (i 0).val ∧ (i 0).val < win2_2.index ⟨(i 0).val / 10000, hN⟩ (0 : Fin 2) * 10000 + 10000; omega
  | ⟨1, _⟩ => show win2_2.index ⟨(i 0).val / 10000, hN⟩ (1 : Fin 2) * 16 ≤ (i 1).val ∧ (i 1).val < win2_2.index ⟨(i 0).val / 10000, hN⟩ (1 : Fin 2) * 16 + 16; omega

/-- THE OUTPUT ARRAY after the region: every row of the region's first argument times the weight matrix. -/
theorem final2 : (dat2 (F := Ideal) V c).arrAt 2 cfg2.N
    = rowsTimes (M := 100000) (K := 128) (N := 16) (V c main_arg0) (V c main_arg5) :=
  (dat2 (F := Ideal) V c).arrAt_eq_of_cover 2 (G V c) (fun t _ => flushed_eq V c t) cover

end Cert.KernelIdeal.Region2

end
-- ==== Proof.Region3.lean ====
import proofs.«170494_j3813930959125_2_alg».proof.Proof.GenP.KernelIdeal.Frame
import proofs.«170494_j3813930959125_2_alg».proof.Proof.Stages
import Idealize.ShloMosaic.Lib.ValueIdx
import Idealize.ShloMosaic.Lib.Pipeline.Value

/-!
# Region 3: the product along every edge

The region multiplies four edge arrays of 3200000 rows of 16 channels entry by entry, grouped from the left. It works on
800 blocks of 4000 consecutive rows: at block `t` every one of the four inputs and the output is read or written through
rows `4000 t … 4000 t + 3999`, all 16 channels. So what block `t` writes back is block `t` of the entrywise product of
the whole arrays, the 800 blocks cover every row, and the output array ends holding that product.
-/

noncomputable section

open Idealize.ShloMosaic Idealize.ShloMosaic.TcCoe Idealize.ShloMosaic.ValueIdx Cert.KernelIdeal Cert.KernelIdeal.Gen Cert.KernelIdeal.GenP Cert.Gcn
open Idealize.ShloMosaic.Pipeline (Dat)

namespace Cert.KernelIdeal.Region3

variable (V : (c : Dev nD) → (b : Ref sig .tc) → Buf (Elt Ideal) ((c : Thread nD τ).loc b)) (c : Dev nD)

/-- The zero offset of a block inside its staging buffer. -/
theorem hz : (![0, 0] : Fin 2 → Nat) = fun _ => 0 := funext fun a => by fin_cases a <;> rfl

/-- The body's stored value at an entry is the product of the four loaded blocks at that entry, grouped from the left:
    a reshape of a shape to itself changes nothing. -/
theorem pay_apply (x0 x1 x2 x3 : Vec Ideal S4000x16 .f32) (j : S4000x16.Idx) :
    k3_pay1 x0 x1 x2 x3 j = x0 j * x1 j * x2 j * x3 j := by
  unfold k3_pay1
  simp only [shapeCast_self]
  rfl

/-- Four arrays read at four places that are all one place: the product there. -/
theorem prod_at (a b d e : Mat 3200000 16) {i0 i1 i2 i3 i : S3200000x16.Idx} (h0 : i0 = i) (h1 : i1 = i) (h2 : i2 = i) (h3 : i3 = i) :
    a i0 * b i1 * d i2 * e i3 = along4 a b d e i := by
  rw [h0, h1, h2, h3, along4_apply]

/-- The index maps over the grid: at every point the four inputs sit at the output's block, and the output's block
    is (point, 0). -/
theorem idx_facts : ∀ t : Fin cfg3.N,
    win3_0.index t (0 : Fin 2) = win3_4.index t (0 : Fin 2) ∧ win3_0.index t (1 : Fin 2) = win3_4.index t (1 : Fin 2)
    ∧ win3_1.index t (0 : Fin 2) = win3_4.index t (0 : Fin 2) ∧ win3_1.index t (1 : Fin 2) = win3_4.index t (1 : Fin 2)
    ∧ win3_2.index t (0 : Fin 2) = win3_4.index t (0 : Fin 2) ∧ win3_2.index t (1 : Fin 2) = win3_4.index t (1 : Fin 2)
    ∧ win3_3.index t (0 : Fin 2) = win3_4.index t (0 : Fin 2) ∧ win3_3.index t (1 : Fin 2) = win3_4.index t (1 : Fin 2)
    ∧ win3_4.index t (0 : Fin 2) = t.val ∧ win3_4.index t (1 : Fin 2) = 0 :=
  (by decide +kernel : ∀ t : Fin grid3.N, _)

/-- What point `t` writes back is block `t` of the entrywise product of the four whole arrays. -/
theorem flushed_eq (t : Fin cfg3.N) :
    (dat3 (F := Ideal) V c).flushed 4 t
      = ((cfg3.win 4).blk t).view.read (Elt Ideal)
          (along4 (n := 3200000) (c := 16) (V c main_v16) (V c main_v5) (V c main_v23) (V c main_v31)) := by
  show (cfg3.win 4).cut (grid3.coords t) ((dat3 (F := Ideal) V c).after 4 t) = _
  rw [after3_4]
  unfold out3_4
  rw [View.canon_unit_zero hz]
  simp only [View.ld_unit_zero (S := S4000x16) hz]
  obtain ⟨e00, e01, e10, e11, e20, e21, e30, e31, -, -⟩ := idx_facts t
  funext j
  have hj0 : (j 0).val < 4000 := (j 0).isLt
  have hj1 : (j 1).val < 16 := (j 1).isLt
  have h0 : ((cfg3.win 0).blk t).view.emb j = ((cfg3.win 4).blk t).view.emb j := by
    funext a; apply Fin.ext
    match a with
    | ⟨0, _⟩ => show win3_0.index t (0 : Fin 2) * 4000 + 1 * (j 0).val = win3_4.index t (0 : Fin 2) * 4000 + 1 * (j 0).val; omega
    | ⟨1, _⟩ => show win3_0.index t (1 : Fin 2) * 16 + 1 * (j 1).val = win3_4.index t (1 : Fin 2) * 16 + 1 * (j 1).val; omega
  have h1 : ((cfg3.win 1).blk t).view.emb j = ((cfg3.win 4).blk t).view.emb j := by
    funext a; apply Fin.ext
    match a with
    | ⟨0, _⟩ => show win3_1.index t (0 : Fin 2) * 4000 + 1 * (j 0).val = win3_4.index t (0 : Fin 2) * 4000 + 1 * (j 0).val; omega
    | ⟨1, _⟩ => show win3_1.index t (1 : Fin 2) * 16 + 1 * (j 1).val = win3_4.index t (1 : Fin 2) * 16 + 1 * (j 1).val; omega
  have h2 : ((cfg3.win 2).blk t).view.emb j = ((cfg3.win 4).blk t).view.emb j := by
    funext a; apply Fin.ext
    match a with
    | ⟨0, _⟩ => show win3_2.index t (0 : Fin 2) * 4000 + 1 * (j 0).val = win3_4.index t (0 : Fin 2) * 4000 + 1 * (j 0).val; omega
    | ⟨1, _⟩ => show win3_2.index t (1 : Fin 2) * 16 + 1 * (j 1).val = win3_4.index t (1 : Fin 2) * 16 + 1 * (j 1).val; omega
  have h3 : ((cfg3.win 3).blk t).view.emb j = ((cfg3.win 4).blk t).view.emb j := by
    funext a; apply Fin.ext
    match a with
    | ⟨0, _⟩ => show win3_3.index t (0 : Fin 2) * 4000 + 1 * (j 0).val = win3_4.index t (0 : Fin 2) * 4000 + 1 * (j 0).val; omega
    | ⟨1, _⟩ => show win3_3.index t (1 : Fin 2) * 16 + 1 * (j 1).val = win3_4.index t (1 : Fin 2) * 16 + 1 * (j 1).val; omega
  exact (pay_apply (iblk3 V c 0 t) (iblk3 V c 1 t) (iblk3 V c 2 t) (iblk3 V c 3 t) j).trans
    (prod_at (V c main_v16) (V c main_v5) (V c main_v23) (V c main_v31) h0 h1 h2 h3)

/-- A row and channel lie in point `t`'s block iff each coordinate is in the block's range on its axis. -/
theorem mem_blk (t : Fin cfg3.N) (i : S3200000x16.Idx) :
    i ∈ ((cfg3.win 4).blk t).view.set ↔ ∀ a : Fin 2, win3_4.index t a * S4000x16.size a ≤ (i a).val ∧ (i a).val < win3_4.index t a * S4000x16.size a + S4000x16.size a := by
  show i ∈ ((View.whole main_v32).slice (win3_4.rect t)).set ↔ _
  rw [View.set_slice_whole, Rect.mem_set_unit]
  exact Iff.rfl

/-- Every entry is written back: row `r` lies in the block of point `r / 4000`. -/
theorem cover (i : S3200000x16.Idx) :
    ∃ t : Fin cfg3.N, (cfg3.win 4).flush t = true ∧ i ∈ ((cfg3.win 4).blk t).view.set := by
  have hN : grid3.N = 800 := N_3
  have hi0 : (i 0).val < 3200000 := (i 0).isLt
  have hi1 : (i 1).val < 16 := (i 1).isLt
  obtain ⟨t, ht⟩ : ∃ t : Fin cfg3.N, t.val = (i 0).val / 4000 :=
    ⟨⟨(i 0).val / 4000, by show (i 0).val / 4000 < grid3.N; rw [hN]; omega⟩, rfl⟩
  obtain ⟨-, -, -, -, -, -, -, -, q0, q1⟩ := idx_facts t
  refine ⟨t, flush3_4 t, ?_⟩
  rw [mem_blk]
  intro a
  match a with
  | ⟨0, _⟩ => show win3_4.index t (0 : Fin 2) * 4000 ≤ (i 0).val ∧ (i 0).val < win3_4.index t (0 : Fin 2) * 4000 + 4000; omega
  | ⟨1, _⟩ => show win3_4.index t (1 : Fin 2) * 16 ≤ (i 1).val ∧ (i 1).val < win3_4.index t (1 : Fin 2) * 16 + 16; omega

/-- The output array after the region: the entrywise product of the four input arrays as the region found them. -/
theorem final3 : (dat3 (F := Ideal) V c).arrAt 4 cfg3.N
    = along4 (n := 3200000) (c := 16) (V c main_v16) (V c main_v5) (V c main_v23) (V c main_v31) :=
  (dat3 (F := Ideal) V c).arrAt_eq_of_cover 4 _ (fun t _ => flushed_eq V c t) cover

end Cert.KernelIdeal.Region3

end
-- ==== Proof.Region4.lean ====
import proofs.«170494_j3813930959125_2_alg».proof.Proof.GenP.KernelIdeal.Frame
import proofs.«170494_j3813930959125_2_alg».proof.Proof.Stages
import Idealize.ShloMosaic.Lib.Pipeline.Value
import Idealize.ShloMosaic.Lib.ValueIdx
import Idealize.ShloMosaic.Lib.ValueLayout

/-!
# The first layer's closing region: what arrived, plus the node's own row, plus the bias, positive part kept

The region walks the 100000 node rows in ten tiles of 10000. On a tile it reads the same rows of three node arrays —
what arrived along the edges, the squared normaliser, the layer's product — and the one bias row, and writes
the positive part of `arrived + normaliser² · product + bias` into the same rows of its output. An entry of the result depends only on the
entries of its own row and column, so the ten tiles written back are the tiles of ONE array-sized function of the three
arrays and the bias, and they cover every row: that function is what the output array holds when the region ends.
-/

set_option maxRecDepth 16384

noncomputable section

namespace Cert.KernelIdeal.Region4

open Idealize.ShloMosaic Idealize.ShloMosaic.ValueIdx Idealize.ShloMosaic.TcCoe Idealize.SL.Sem
open Cert.KernelIdeal Cert.KernelIdeal.Gen Cert.KernelIdeal.GenP Cert.Gcn Cert.Layers Cert.RowTile

/-- On one tile the stored value is the positive part of the self-loop sum with the bias row added to every row. -/
theorem block_eq (x0 x1 x2 : Vec Ideal S10000x16 .f32) (x3 : Vec Ideal S1x16 .f32) :
    k4_pay1 (F := Ideal) x0 x1 x2 x3 = reluRow (M := 10000) (N := 16) (selfLoop x0 x1 x2) (rowVec (N := 16) x3) := by
  unfold k4_pay1
  simp only [shapeCast_self]
  exact maximumf_addf_bcastRow (M := 10000) (N := 16) (addf x0 (mulf x1 x2)) x3 broadcasts_S1x16_S10000x16

/-- A tile's entry is the array's entry when the tile's operands are the array's operands there: an entry of the
    self-loop sum with bias, positive part kept, depends only on the operands' entries at its own row and column. -/
theorem tile_entry (A B C : Mat 100000 16) (D : Mat 1 16) (a b d : Mat 10000 16) (e : Mat 1 16)
    (j : S10000x16.Idx) (i : S100000x16.Idx)
    (ha : a j = A i) (hb : b j = B i) (hd : d j = C i) (he : e (ix2 (0 : Fin 1) (j 1)) = D (ix2 (0 : Fin 1) (i 1))) :
    reluRow (M := 10000) (N := 16) (selfLoop a b d) (rowVec (N := 16) e) j
      = reluRow (M := 100000) (N := 16) (selfLoop A B C) (rowVec (N := 16) D) i := by
  show max ((a j + b j * d j) + e (ix2 (0 : Fin 1) (j 1))) 0 = max ((A i + B i * C i) + D (ix2 (0 : Fin 1) (i 1))) 0
  rw [ha, hb, hd, he]

variable (V : (c : Dev nD) → (b : Ref sig .tc) → Buf (Elt Ideal) ((c : Thread nD τ).loc b)) (c : Dev nD)

/-- Where the tiles sit: at point `t` the three node arrays and the output are at row tile `t`, the bias row at its
    only block. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What point `t` writes back is tile `t` of the array-sized function. -/
theorem flushed_eq (t : Fin cfg4.N) :
    (dat4 (F := Ideal) V c).flushed 4 t = ((cfg4.win 4).blk t).view.read (Elt Ideal)
      (reluRow (M := 100000) (N := 16) (selfLoop (V c main_v35) (V c main_v9_1) (V c main_v24)) (rowVec (N := 16) (V c main_v36))) := by
  show (cfg4.win 4).cut (grid4.coords t) ((dat4 (F := Ideal) V c).after 4 t) = _
  rw [after4_4]
  unfold out4_4
  rw [View.canon_unit_zero zeros2]
  simp only [View.ld_unit_zero (S := S10000x16) zeros2, View.ld_unit_zero (S := S1x16) zeros2]
  rw [block_eq]
  obtain ⟨e00, e01, e10, e11, e20, e21, e30, e31, e40, e41⟩ := idx_facts t
  funext j
  have hj0 : (j 0).val < 10000 := (j 0).isLt
  have hj1 : (j 1).val < 16 := (j 1).isLt
  have h0 : ((cfg4.win 0).blk t).view.emb j = ((cfg4.win 4).blk t).view.emb j := by
    funext a; apply Fin.ext
    match a with
    | ⟨0, _⟩ => show win4_0.index t (0 : Fin 2) * 10000 + 1 * (j 0).val = win4_4.index t (0 : Fin 2) * 10000 + 1 * (j 0).val; omega
    | ⟨1, _⟩ => show win4_0.index t (1 : Fin 2) * 16 + 1 * (j 1).val = win4_4.index t (1 : Fin 2) * 16 + 1 * (j 1).val; omega
  have h1 : ((cfg4.win 1).blk t).view.emb j = ((cfg4.win 4).blk t).view.emb j := by
    funext a; apply Fin.ext
    match a with
    | ⟨0, _⟩ => show win4_1.index t (0 : Fin 2) * 10000 + 1 * (j 0).val = win4_4.index t (0 : Fin 2) * 10000 + 1 * (j 0).val; omega
    | ⟨1, _⟩ => show win4_1.index t (1 : Fin 2) * 16 + 1 * (j 1).val = win4_4.index t (1 : Fin 2) * 16 + 1 * (j 1).val; omega
  have h2 : ((cfg4.win 2).blk t).view.emb j = ((cfg4.win 4).blk t).view.emb j := by
    funext a; apply Fin.ext
    match a with
    | ⟨0, _⟩ => show win4_2.index t (0 : Fin 2) * 10000 + 1 * (j 0).val = win4_4.index t (0 : Fin 2) * 10000 + 1 * (j 0).val; omega
    | ⟨1, _⟩ => show win4_2.index t (1 : Fin 2) * 16 + 1 * (j 1).val = win4_4.index t (1 : Fin 2) * 16 + 1 * (j 1).val; omega
  have h3 : ((cfg4.win 3).blk t).view.emb (ix2 (0 : Fin 1) (j 1)) = ix2 (0 : Fin 1) ((((cfg4.win 4).blk t).view.emb j) 1) := by
    funext a; apply Fin.ext
    match a with
    | ⟨0, _⟩ => show win4_3.index t (0 : Fin 2) * 1 + 1 * 0 = 0; omega
    | ⟨1, _⟩ => show win4_3.index t (1 : Fin 2) * 16 + 1 * (j 1).val = win4_4.index t (1 : Fin 2) * 16 + 1 * (j 1).val; omega
  refine tile_entry (V c main_v35) (V c main_v9_1) (V c main_v24) (V c main_v36)
    (iblk4 V c 0 t) (iblk4 V c 1 t) (iblk4 V c 2 t) (iblk4 V c 3 t) j (((cfg4.win 4).blk t).view.emb j) ?_ ?_ ?_ ?_
  · show V c main_v35 (((cfg4.win 0).blk t).view.emb j) = V c main_v35 (((cfg4.win 4).blk t).view.emb j)
    rw [h0]
  · show V c main_v9_1 (((cfg4.win 1).blk t).view.emb j) = V c main_v9_1 (((cfg4.win 4).blk t).view.emb j)
    rw [h1]
  · show V c main_v24 (((cfg4.win 2).blk t).view.emb j) = V c main_v24 (((cfg4.win 4).blk t).view.emb j)
    rw [h2]
  · show V c main_v36 (((cfg4.win 3).blk t).view.emb (ix2 (0 : Fin 1) (j 1))) = V c main_v36 (ix2 (0 : Fin 1) ((((cfg4.win 4).blk t).view.emb j) 1))
    exact congrArg (V c main_v36) h3

/-- An index of the output array is in point `t`'s tile iff each coordinate is in the tile's range. -/
theorem mem_blk (t : Fin cfg4.N) (i : S100000x16.Idx) :
    i ∈ ((cfg4.win 4).blk t).view.set ↔ ∀ a : Fin 2, win4_4.index t a * S10000x16.size a ≤ (i a).val ∧ (i a).val < win4_4.index t a * S10000x16.size a + S10000x16.size a := by
  show i ∈ ((View.whole main_v37).slice (win4_4.rect t)).set ↔ _
  rw [View.set_slice_whole, Rect.mem_set_unit]
  exact Iff.rfl

/-- Every row is in some tile: row `r` is in tile `r / 10000`. -/
theorem cover (i : S100000x16.Idx) : ∃ t : Fin cfg4.N, (cfg4.win 4).flush t = true ∧ i ∈ ((cfg4.win 4).blk t).view.set := by
  have hi0 : (i 0).val < 100000 := (i 0).isLt
  have hi1 : (i 1).val < 16 := (i 1).isLt
  have hN : grid4.N = 10 := N_4
  have ht : (i 0).val / 10000 < cfg4.N := by show (i 0).val / 10000 < grid4.N; rw [hN]; omega
  obtain ⟨-, -, -, -, -, -, -, -, e40, e41⟩ := idx_facts ⟨(i 0).val / 10000, ht⟩
  refine ⟨⟨(i 0).val / 10000, ht⟩, flush4_4 _, ?_⟩
  rw [mem_blk]
  intro a
  match a with
  | ⟨0, _⟩ =>
    show win4_4.index ⟨(i 0).val / 10000, ht⟩ (0 : Fin 2) * 10000 ≤ (i 0).val ∧ (i 0).val < win4_4.index ⟨(i 0).val / 10000, ht⟩ (0 : Fin 2) * 10000 + 10000
    rw [e40]; show (i 0).val / 10000 * 10000 ≤ (i 0).val ∧ (i 0).val < (i 0).val / 10000 * 10000 + 10000; omega
  | ⟨1, _⟩ =>
    show win4_4.index ⟨(i 0).val / 10000, ht⟩ (1 : Fin 2) * 16 ≤ (i 1).val ∧ (i 1).val < win4_4.index ⟨(i 0).val / 10000, ht⟩ (1 : Fin 2) * 16 + 16
    rw [e41]; omega

/-- When the region ends its output array holds the positive part of `arrived + normaliser² · product + bias`. -/
theorem final4 : (dat4 (F := Ideal) V c).arrAt 4 cfg4.N
    = reluRow (M := 100000) (N := 16) (selfLoop (V c main_v35) (V c main_v9_1) (V c main_v24)) (rowVec (N := 16) (V c main_v36)) :=
  (dat4 (F := Ideal) V c).arrAt_eq_of_cover 4 _ (fun t _ => flushed_eq V c t) (cover)

end Cert.KernelIdeal.Region4

end
-- ==== Proof.Region5.lean ====
import proofs.«170494_j3813930959125_2_alg».proof.Proof.GenP.KernelIdeal.Frame
import proofs.«170494_j3813930959125_2_alg».proof.Proof.Stages
import Idealize.ShloMosaic.Lib.Pipeline.Value

/-!
# Region 5: a tile of rows times the whole second-layer weight matrix

The region walks the `[100000, 16]` array of node rows in ten tiles of `10000` rows. At each tile it multiplies the tile
by the whole `[16, 16]` weight matrix (into a zero accumulator; the reshape of the tile to its own shape and the casts to
a narrower float format are the identity over the extended reals) and writes the `[10000, 16]` product back as the tile
of the same rows of the output. An entry of a product depends on its own row of the left operand only, so the output
array ends holding the product of the WHOLE array of rows with the weight matrix: every output row lies in exactly the
tile `r / 10000`.
-/

noncomputable section

namespace Cert.KernelIdeal.Region5

open Idealize.ShloMosaic Idealize.ShloMosaic.TcCoe Idealize.ShloMosaic.ValueIdx
open Cert.KernelIdeal Cert.KernelIdeal.Gen Cert.KernelIdeal.GenP Cert.Gcn Cert.Layers Cert.RowTile
open Idealize.ShloMosaic.Pipeline (Dat)

variable (V : (c : Dev nD) → (b : Ref sig .tc) → Buf (Elt Ideal) ((c : Thread nD τ).loc b)) (c : Dev nD)

/-- The tile the body stores is the product of the tile of rows it loaded with the weight matrix it loaded. -/
theorem pay_eq (x0 : Vec Ideal S10000x16 .f32) (x1 : Vec Ideal S16x16 .f32) :
    k5_pay1 x0 x1 = rowsTimes (M := 10000) (K := 16) (N := 16) x0 x1 := by
  have h1 := Cert.Layers.matmul_zero_eq dot_S10000x16_S16x16_S10000x16_1_0_0_1_n_n ⟨rfl, rfl, rfl, rfl, rfl, rfl⟩ none
    (truncf .bf16 (shapeCast S10000x16 x0 shapeCasts_S10000x16_S10000x16) bitsLt_bf16_f32 : FVec Ideal S10000x16 .bf16)
    (truncf .bf16 x1 bitsLt_bf16_f32 : FVec Ideal S16x16 .bf16)
  unfold k5_pay1
  refine h1.trans ?_
  show rowsTimes (M := 10000) (K := 16) (N := 16) (shapeCast S10000x16 x0 shapeCasts_S10000x16_S10000x16) x1
      = rowsTimes (M := 10000) (K := 16) (N := 16) x0 x1
  rw [shapeCast_self]

/-- What the body leaves in the output's staging buffer: that product of the two input blocks. -/
theorem out_eq (x0 : Vec Ideal S10000x16 .f32) (x1 : Vec Ideal S16x16 .f32) :
    out5_2 x0 x1 = rowsTimes (M := 10000) (K := 16) (N := 16) x0 x1 := by
  unfold out5_2
  rw [View.canon_unit_zero zeros2]
  rw [View.ld_unit_zero (S := S10000x16) zeros2, View.ld_unit_zero (S := S16x16) zeros2]
  exact pay_eq x0 x1

/-- An entry of a tile's product is the entry of the whole array's product in the row the tile's row is, the weights
    being the same in the column read. -/
theorem tile_entry (A : Mat 100000 16) (W : Mat 16 16) (At : Mat 10000 16) (Wt : Mat 16 16)
    (p : Fin 10000) (r : Fin 100000) (q : Fin 16)
    (hA : ∀ k : Fin 16, At (ix2 p k) = A (ix2 r k)) (hW : ∀ k : Fin 16, Wt (ix2 k q) = W (ix2 k q)) :
    rowsTimes At Wt (ix2 p q) = rowsTimes A W (ix2 r q) := by
  refine (rowsTimes_row A At Wt p r hA q).trans ?_
  rw [rowsTimes_apply, rowsTimes_apply]
  exact Finset.sum_congr rfl fun k _ => by rw [hW k]

/-- The printed index maps, decided over the ten grid points: the tile of rows and the output tile are the point's own,
    in the one block column; the weight matrix is always its one block. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The whole output array: every row of the region's first argument times the weight matrix. -/
abbrev G : Mat 100000 16 := rowsTimes (M := 100000) (K := 16) (N := 16) (V c main_v37) (V c main_arg7)

/-- WHAT POINT `t` WRITES BACK is tile `t` of the whole array's product. -/
theorem flushed_eq (t : Fin cfg5.N) :
    (dat5 (F := Ideal) V c).flushed 2 t = ((cfg5.win 2).blk t).view.read (Elt Ideal) (G V c) := by
  show (cfg5.win 2).cut (grid5.coords t) ((dat5 (F := Ideal) V c).after 2 t) = _
  rw [after5_2, out_eq (iblk5 V c 0 t) (iblk5 V c 1 t)]
  obtain ⟨e0, e1, e2, e3, e4, e5⟩ := idx_facts t
  have ht : t.val < 10 := Nat.lt_of_lt_of_eq t.isLt N_5
  funext j
  obtain ⟨p, q, rfl⟩ : ∃ (p : Fin 10000) (q : Fin 16), j = ix2 p q := ⟨j 0, j 1, eq_ix2 j⟩
  have hp : p.val < 10000 := p.isLt
  have hq : q.val < 16 := q.isLt
  have hr : t.val * 10000 + p.val < 100000 := by omega
  show rowsTimes (M := 10000) (K := 16) (N := 16) (iblk5 V c 0 t) (iblk5 V c 1 t) (ix2 p q)
      = G V c (((cfg5.win 2).blk t).view.emb (ix2 p q))
  have he : ((cfg5.win 2).blk t).view.emb (ix2 p q) = (ix2 (⟨t.val * 10000 + p.val, hr⟩ : Fin 100000) q : S100000x16.Idx) := by
    funext a; apply Fin.ext
    match a with
    | ⟨0, _⟩ => show win5_2.index t (0 : Fin 2) * 10000 + 1 * p.val = t.val * 10000 + p.val; omega
    | ⟨1, _⟩ => show win5_2.index t (1 : Fin 2) * 16 + 1 * q.val = q.val; omega
  rw [he]
  refine tile_entry (V c main_v37) (V c main_arg7) (iblk5 V c 0 t) (iblk5 V c 1 t) p ⟨t.val * 10000 + p.val, hr⟩ q
    (fun k => ?_) (fun k => ?_)
  · have hk : k.val < 16 := k.isLt
    show V c main_v37 (((cfg5.win 0).blk t).view.emb (ix2 p k)) = V c main_v37 (ix2 (⟨t.val * 10000 + p.val, hr⟩ : Fin 100000) k)
    refine congrArg (V c main_v37) ?_
    funext a; apply Fin.ext
    match a with
    | ⟨0, _⟩ => show win5_0.index t (0 : Fin 2) * 10000 + 1 * p.val = t.val * 10000 + p.val; omega
    | ⟨1, _⟩ => show win5_0.index t (1 : Fin 2) * 16 + 1 * k.val = k.val; omega
  · have hk : k.val < 16 := k.isLt
    show V c main_arg7 (((cfg5.win 1).blk t).view.emb (ix2 k q)) = V c main_arg7 (ix2 k q)
    refine congrArg (V c main_arg7) ?_
    funext a; apply Fin.ext
    match a with
    | ⟨0, _⟩ => show win5_1.index t (0 : Fin 2) * 16 + 1 * k.val = k.val; omega
    | ⟨1, _⟩ => show win5_1.index t (1 : Fin 2) * 16 + 1 * q.val = q.val; omega

/-- An index of the output array is in point `t`'s tile iff each coordinate is in the tile's range on its axis. -/
theorem mem_blk (t : Fin cfg5.N) (i : S100000x16.Idx) :
    i ∈ ((cfg5.win 2).blk t).view.set ↔ ∀ a : Fin 2, win5_2.index t a * S10000x16.size a ≤ (i a).val ∧ (i a).val < win5_2.index t a * S10000x16.size a + S10000x16.size a := by
  show i ∈ ((View.whole main_v38).slice (win5_2.rect t)).set ↔ _
  rw [View.set_slice_whole, Rect.mem_set_unit]
  exact Iff.rfl

/-- Every index of the output array is in the tile of the point `row / 10000`. -/
theorem cover (i : S100000x16.Idx) : ∃ t : Fin cfg5.N, (cfg5.win 2).flush t = true ∧ i ∈ ((cfg5.win 2).blk t).view.set := by
  have hi0 : (i 0).val < 100000 := (i 0).isLt
  have hi1 : (i 1).val < 16 := (i 1).isLt
  have hN : (i 0).val / 10000 < cfg5.N := Nat.lt_of_lt_of_eq (show (i 0).val / 10000 < 10 by omega) N_5.symm
  obtain ⟨e0, e1, e2, e3, e4, e5⟩ := idx_facts ⟨(i 0).val / 10000, hN⟩
  have e4' : win5_2.index ⟨(i 0).val / 10000, hN⟩ (0 : Fin 2) = (i 0).val / 10000 := e4
  refine ⟨⟨(i 0).val / 10000, hN⟩, flush5_2 _, ?_⟩
  rw [mem_blk]
  intro a
  match a with
  | ⟨0, _⟩ => show win5_2.index ⟨(i 0).val / 10000, hN⟩ (0 : Fin 2) * 10000 ≤ (i 0).val ∧ (i 0).val < win5_2.index ⟨(i 0).val / 10000, hN⟩ (0 : Fin 2) * 10000 + 10000; omega
  | ⟨1, _⟩ => show win5_2.index ⟨(i 0).val / 10000, hN⟩ (1 : Fin 2) * 16 ≤ (i 1).val ∧ (i 1).val < win5_2.index ⟨(i 0).val / 10000, hN⟩ (1 : Fin 2) * 16 + 16; omega

/-- THE OUTPUT ARRAY after the region: every row of the region's first argument times the weight matrix. -/
theorem final5 : (dat5 (F := Ideal) V c).arrAt 2 cfg5.N
    = rowsTimes (M := 100000) (K := 16) (N := 16) (V c main_v37) (V c main_arg7) :=
  (dat5 (F := Ideal) V c).arrAt_eq_of_cover 2 (G V c) (fun t _ => flushed_eq V c t) cover

end Cert.KernelIdeal.Region5

end
-- ==== Proof.Region6.lean ====
import proofs.«170494_j3813930959125_2_alg».proof.Proof.GenP.KernelIdeal.Frame
import proofs.«170494_j3813930959125_2_alg».proof.Proof.Stages
import Idealize.ShloMosaic.Lib.ValueIdx
import Idealize.ShloMosaic.Lib.Pipeline.Value

/-!
# Region 6: the product along every edge

The region multiplies four edge arrays of 3200000 rows of 16 channels entry by entry, grouped from the left. It works on
800 blocks of 4000 consecutive rows: at block `t` every one of the four inputs and the output is read or written through
rows `4000 t … 4000 t + 3999`, all 16 channels. So what block `t` writes back is block `t` of the entrywise product of
the whole arrays, the 800 blocks cover every row, and the output array ends holding that product.
-/

noncomputable section

open Idealize.ShloMosaic Idealize.ShloMosaic.TcCoe Idealize.ShloMosaic.ValueIdx Cert.KernelIdeal Cert.KernelIdeal.Gen Cert.KernelIdeal.GenP Cert.Gcn
open Idealize.ShloMosaic.Pipeline (Dat)

namespace Cert.KernelIdeal.Region6

variable (V : (c : Dev nD) → (b : Ref sig .tc) → Buf (Elt Ideal) ((c : Thread nD τ).loc b)) (c : Dev nD)

/-- The zero offset of a block inside its staging buffer. -/
theorem hz : (![0, 0] : Fin 2 → Nat) = fun _ => 0 := funext fun a => by fin_cases a <;> rfl

/-- The body's stored value at an entry is the product of the four loaded blocks at that entry, grouped from the left:
    a reshape of a shape to itself changes nothing. -/
theorem pay_apply (x0 x1 x2 x3 : Vec Ideal S4000x16 .f32) (j : S4000x16.Idx) :
    k6_pay1 x0 x1 x2 x3 j = x0 j * x1 j * x2 j * x3 j := by
  unfold k6_pay1
  simp only [shapeCast_self]
  rfl

/-- Four arrays read at four places that are all one place: the product there. -/
theorem prod_at (a b d e : Mat 3200000 16) {i0 i1 i2 i3 i : S3200000x16.Idx} (h0 : i0 = i) (h1 : i1 = i) (h2 : i2 = i) (h3 : i3 = i) :
    a i0 * b i1 * d i2 * e i3 = along4 a b d e i := by
  rw [h0, h1, h2, h3, along4_apply]

/-- The index maps over the grid: at every point the four inputs sit at the output's block, and the output's block
    is (point, 0). -/
theorem idx_facts : ∀ t : Fin cfg6.N,
    win6_0.index t (0 : Fin 2) = win6_4.index t (0 : Fin 2) ∧ win6_0.index t (1 : Fin 2) = win6_4.index t (1 : Fin 2)
    ∧ win6_1.index t (0 : Fin 2) = win6_4.index t (0 : Fin 2) ∧ win6_1.index t (1 : Fin 2) = win6_4.index t (1 : Fin 2)
    ∧ win6_2.index t (0 : Fin 2) = win6_4.index t (0 : Fin 2) ∧ win6_2.index t (1 : Fin 2) = win6_4.index t (1 : Fin 2)
    ∧ win6_3.index t (0 : Fin 2) = win6_4.index t (0 : Fin 2) ∧ win6_3.index t (1 : Fin 2) = win6_4.index t (1 : Fin 2)
    ∧ win6_4.index t (0 : Fin 2) = t.val ∧ win6_4.index t (1 : Fin 2) = 0 :=
  (by decide +kernel : ∀ t : Fin grid6.N, _)

/-- What point `t` writes back is block `t` of the entrywise product of the four whole arrays. -/
theorem flushed_eq (t : Fin cfg6.N) :
    (dat6 (F := Ideal) V c).flushed 4 t
      = ((cfg6.win 4).blk t).view.read (Elt Ideal)
          (along4 (n := 3200000) (c := 16) (V c main_v16) (V c main_v5) (V c main_v23) (V c main_v45)) := by
  show (cfg6.win 4).cut (grid6.coords t) ((dat6 (F := Ideal) V c).after 4 t) = _
  rw [after6_4]
  unfold out6_4
  rw [View.canon_unit_zero hz]
  simp only [View.ld_unit_zero (S := S4000x16) hz]
  obtain ⟨e00, e01, e10, e11, e20, e21, e30, e31, -, -⟩ := idx_facts t
  funext j
  have hj0 : (j 0).val < 4000 := (j 0).isLt
  have hj1 : (j 1).val < 16 := (j 1).isLt
  have h0 : ((cfg6.win 0).blk t).view.emb j = ((cfg6.win 4).blk t).view.emb j := by
    funext a; apply Fin.ext
    match a with
    | ⟨0, _⟩ => show win6_0.index t (0 : Fin 2) * 4000 + 1 * (j 0).val = win6_4.index t (0 : Fin 2) * 4000 + 1 * (j 0).val; omega
    | ⟨1, _⟩ => show win6_0.index t (1 : Fin 2) * 16 + 1 * (j 1).val = win6_4.index t (1 : Fin 2) * 16 + 1 * (j 1).val; omega
  have h1 : ((cfg6.win 1).blk t).view.emb j = ((cfg6.win 4).blk t).view.emb j := by
    funext a; apply Fin.ext
    match a with
    | ⟨0, _⟩ => show win6_1.index t (0 : Fin 2) * 4000 + 1 * (j 0).val = win6_4.index t (0 : Fin 2) * 4000 + 1 * (j 0).val; omega
    | ⟨1, _⟩ => show win6_1.index t (1 : Fin 2) * 16 + 1 * (j 1).val = win6_4.index t (1 : Fin 2) * 16 + 1 * (j 1).val; omega
  have h2 : ((cfg6.win 2).blk t).view.emb j = ((cfg6.win 4).blk t).view.emb j := by
    funext a; apply Fin.ext
    match a with
    | ⟨0, _⟩ => show win6_2.index t (0 : Fin 2) * 4000 + 1 * (j 0).val = win6_4.index t (0 : Fin 2) * 4000 + 1 * (j 0).val; omega
    | ⟨1, _⟩ => show win6_2.index t (1 : Fin 2) * 16 + 1 * (j 1).val = win6_4.index t (1 : Fin 2) * 16 + 1 * (j 1).val; omega
  have h3 : ((cfg6.win 3).blk t).view.emb j = ((cfg6.win 4).blk t).view.emb j := by
    funext a; apply Fin.ext
    match a with
    | ⟨0, _⟩ => show win6_3.index t (0 : Fin 2) * 4000 + 1 * (j 0).val = win6_4.index t (0 : Fin 2) * 4000 + 1 * (j 0).val; omega
    | ⟨1, _⟩ => show win6_3.index t (1 : Fin 2) * 16 + 1 * (j 1).val = win6_4.index t (1 : Fin 2) * 16 + 1 * (j 1).val; omega
  exact (pay_apply (iblk6 V c 0 t) (iblk6 V c 1 t) (iblk6 V c 2 t) (iblk6 V c 3 t) j).trans
    (prod_at (V c main_v16) (V c main_v5) (V c main_v23) (V c main_v45) h0 h1 h2 h3)

/-- A row and channel lie in point `t`'s block iff each coordinate is in the block's range on its axis. -/
theorem mem_blk (t : Fin cfg6.N) (i : S3200000x16.Idx) :
    i ∈ ((cfg6.win 4).blk t).view.set ↔ ∀ a : Fin 2, win6_4.index t a * S4000x16.size a ≤ (i a).val ∧ (i a).val < win6_4.index t a * S4000x16.size a + S4000x16.size a := by
  show i ∈ ((View.whole main_v46).slice (win6_4.rect t)).set ↔ _
  rw [View.set_slice_whole, Rect.mem_set_unit]
  exact Iff.rfl

/-- Every entry is written back: row `r` lies in the block of point `r / 4000`. -/
theorem cover (i : S3200000x16.Idx) :
    ∃ t : Fin cfg6.N, (cfg6.win 4).flush t = true ∧ i ∈ ((cfg6.win 4).blk t).view.set := by
  have hN : grid6.N = 800 := N_6
  have hi0 : (i 0).val < 3200000 := (i 0).isLt
  have hi1 : (i 1).val < 16 := (i 1).isLt
  obtain ⟨t, ht⟩ : ∃ t : Fin cfg6.N, t.val = (i 0).val / 4000 :=
    ⟨⟨(i 0).val / 4000, by show (i 0).val / 4000 < grid6.N; rw [hN]; omega⟩, rfl⟩
  obtain ⟨-, -, -, -, -, -, -, -, q0, q1⟩ := idx_facts t
  refine ⟨t, flush6_4 t, ?_⟩
  rw [mem_blk]
  intro a
  match a with
  | ⟨0, _⟩ => show win6_4.index t (0 : Fin 2) * 4000 ≤ (i 0).val ∧ (i 0).val < win6_4.index t (0 : Fin 2) * 4000 + 4000; omega
  | ⟨1, _⟩ => show win6_4.index t (1 : Fin 2) * 16 ≤ (i 1).val ∧ (i 1).val < win6_4.index t (1 : Fin 2) * 16 + 16; omega

/-- The output array after the region: the entrywise product of the four input arrays as the region found them. -/
theorem final6 : (dat6 (F := Ideal) V c).arrAt 4 cfg6.N
    = along4 (n := 3200000) (c := 16) (V c main_v16) (V c main_v5) (V c main_v23) (V c main_v45) :=
  (dat6 (F := Ideal) V c).arrAt_eq_of_cover 4 _ (fun t _ => flushed_eq V c t) cover

end Cert.KernelIdeal.Region6

end
-- ==== Proof.Region7.lean ====
import proofs.«170494_j3813930959125_2_alg».proof.Proof.GenP.KernelIdeal.Frame
import proofs.«170494_j3813930959125_2_alg».proof.Proof.Stages
import Idealize.ShloMosaic.Lib.Pipeline.Value
import Idealize.ShloMosaic.Lib.ValueIdx
import Idealize.ShloMosaic.Lib.ValueLayout

/-!
# The last region: what arrived, plus the node's own row, plus the bias

The region walks the 100000 node rows in ten tiles of 10000. On a tile it reads the same rows of three node arrays —
what arrived along the edges, the squared normaliser, the layer's product — and the one bias row, and writes
`arrived + normaliser² · product + bias` into the same rows of its output. An entry of the result depends only on the
entries of its own row and column, so the ten tiles written back are the tiles of ONE array-sized function of the three
arrays and the bias, and they cover every row: that function is what the output array holds when the region ends.
-/

set_option maxRecDepth 16384

noncomputable section

namespace Cert.KernelIdeal.Region7

open Idealize.ShloMosaic Idealize.ShloMosaic.ValueIdx Idealize.ShloMosaic.TcCoe Idealize.SL.Sem
open Cert.KernelIdeal Cert.KernelIdeal.Gen Cert.KernelIdeal.GenP Cert.Gcn Cert.Layers Cert.RowTile

/-- On one tile the stored value is the self-loop sum with the bias row added to every row. -/
theorem block_eq (x0 x1 x2 : Vec Ideal S10000x16 .f32) (x3 : Vec Ideal S1x16 .f32) :
    k7_pay1 (F := Ideal) x0 x1 x2 x3 = addRow (M := 10000) (N := 16) (selfLoop x0 x1 x2) (rowVec (N := 16) x3) := by
  unfold k7_pay1
  simp only [shapeCast_self]
  exact addf_bcastRow (M := 10000) (N := 16) (addf x0 (mulf x1 x2)) x3 broadcasts_S1x16_S10000x16

/-- A tile's entry is the array's entry when the tile's operands are the array's operands there: an entry of the
    self-loop sum with bias depends only on the operands' entries at its own row and column. -/
theorem tile_entry (A B C : Mat 100000 16) (D : Mat 1 16) (a b d : Mat 10000 16) (e : Mat 1 16)
    (j : S10000x16.Idx) (i : S100000x16.Idx)
    (ha : a j = A i) (hb : b j = B i) (hd : d j = C i) (he : e (ix2 (0 : Fin 1) (j 1)) = D (ix2 (0 : Fin 1) (i 1))) :
    addRow (M := 10000) (N := 16) (selfLoop a b d) (rowVec (N := 16) e) j
      = addRow (M := 100000) (N := 16) (selfLoop A B C) (rowVec (N := 16) D) i := by
  show (a j + b j * d j) + e (ix2 (0 : Fin 1) (j 1)) = (A i + B i * C i) + D (ix2 (0 : Fin 1) (i 1))
  rw [ha, hb, hd, he]

variable (V : (c : Dev nD) → (b : Ref sig .tc) → Buf (Elt Ideal) ((c : Thread nD τ).loc b)) (c : Dev nD)

/-- Where the tiles sit: at point `t` the three node arrays and the output are at row tile `t`, the bias row at its
    only block. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- What point `t` writes back is tile `t` of the array-sized function. -/
theorem flushed_eq (t : Fin cfg7.N) :
    (dat7 (F := Ideal) V c).flushed 4 t = ((cfg7.win 4).blk t).view.read (Elt Ideal)
      (addRow (M := 100000) (N := 16) (selfLoop (V c main_v49) (V c main_v9_1) (V c main_v38)) (rowVec (N := 16) (V c main_v50))) := by
  show (cfg7.win 4).cut (grid7.coords t) ((dat7 (F := Ideal) V c).after 4 t) = _
  rw [after7_4]
  unfold out7_4
  rw [View.canon_unit_zero zeros2]
  simp only [View.ld_unit_zero (S := S10000x16) zeros2, View.ld_unit_zero (S := S1x16) zeros2]
  rw [block_eq]
  obtain ⟨e00, e01, e10, e11, e20, e21, e30, e31, e40, e41⟩ := idx_facts t
  funext j
  have hj0 : (j 0).val < 10000 := (j 0).isLt
  have hj1 : (j 1).val < 16 := (j 1).isLt
  have h0 : ((cfg7.win 0).blk t).view.emb j = ((cfg7.win 4).blk t).view.emb j := by
    funext a; apply Fin.ext
    match a with
    | ⟨0, _⟩ => show win7_0.index t (0 : Fin 2) * 10000 + 1 * (j 0).val = win7_4.index t (0 : Fin 2) * 10000 + 1 * (j 0).val; omega
    | ⟨1, _⟩ => show win7_0.index t (1 : Fin 2) * 16 + 1 * (j 1).val = win7_4.index t (1 : Fin 2) * 16 + 1 * (j 1).val; omega
  have h1 : ((cfg7.win 1).blk t).view.emb j = ((cfg7.win 4).blk t).view.emb j := by
    funext a; apply Fin.ext
    match a with
    | ⟨0, _⟩ => show win7_1.index t (0 : Fin 2) * 10000 + 1 * (j 0).val = win7_4.index t (0 : Fin 2) * 10000 + 1 * (j 0).val; omega
    | ⟨1, _⟩ => show win7_1.index t (1 : Fin 2) * 16 + 1 * (j 1).val = win7_4.index t (1 : Fin 2) * 16 + 1 * (j 1).val; omega
  have h2 : ((cfg7.win 2).blk t).view.emb j = ((cfg7.win 4).blk t).view.emb j := by
    funext a; apply Fin.ext
    match a with
    | ⟨0, _⟩ => show win7_2.index t (0 : Fin 2) * 10000 + 1 * (j 0).val = win7_4.index t (0 : Fin 2) * 10000 + 1 * (j 0).val; omega
    | ⟨1, _⟩ => show win7_2.index t (1 : Fin 2) * 16 + 1 * (j 1).val = win7_4.index t (1 : Fin 2) * 16 + 1 * (j 1).val; omega
  have h3 : ((cfg7.win 3).blk t).view.emb (ix2 (0 : Fin 1) (j 1)) = ix2 (0 : Fin 1) ((((cfg7.win 4).blk t).view.emb j) 1) := by
    funext a; apply Fin.ext
    match a with
    | ⟨0, _⟩ => show win7_3.index t (0 : Fin 2) * 1 + 1 * 0 = 0; omega
    | ⟨1, _⟩ => show win7_3.index t (1 : Fin 2) * 16 + 1 * (j 1).val = win7_4.index t (1 : Fin 2) * 16 + 1 * (j 1).val; omega
  refine tile_entry (V c main_v49) (V c main_v9_1) (V c main_v38) (V c main_v50)
    (iblk7 V c 0 t) (iblk7 V c 1 t) (iblk7 V c 2 t) (iblk7 V c 3 t) j (((cfg7.win 4).blk t).view.emb j) ?_ ?_ ?_ ?_
  · show V c main_v49 (((cfg7.win 0).blk t).view.emb j) = V c main_v49 (((cfg7.win 4).blk t).view.emb j)
    rw [h0]
  · show V c main_v9_1 (((cfg7.win 1).blk t).view.emb j) = V c main_v9_1 (((cfg7.win 4).blk t).view.emb j)
    rw [h1]
  · show V c main_v38 (((cfg7.win 2).blk t).view.emb j) = V c main_v38 (((cfg7.win 4).blk t).view.emb j)
    rw [h2]
  · show V c main_v50 (((cfg7.win 3).blk t).view.emb (ix2 (0 : Fin 1) (j 1))) = V c main_v50 (ix2 (0 : Fin 1) ((((cfg7.win 4).blk t).view.emb j) 1))
    exact congrArg (V c main_v50) h3

/-- An index of the output array is in point `t`'s tile iff each coordinate is in the tile's range. -/
theorem mem_blk (t : Fin cfg7.N) (i : S100000x16.Idx) :
    i ∈ ((cfg7.win 4).blk t).view.set ↔ ∀ a : Fin 2, win7_4.index t a * S10000x16.size a ≤ (i a).val ∧ (i a).val < win7_4.index t a * S10000x16.size a + S10000x16.size a := by
  show i ∈ ((View.whole main_v51).slice (win7_4.rect t)).set ↔ _
  rw [View.set_slice_whole, Rect.mem_set_unit]
  exact Iff.rfl

/-- Every row is in some tile: row `r` is in tile `r / 10000`. -/
theorem cover (i : S100000x16.Idx) : ∃ t : Fin cfg7.N, (cfg7.win 4).flush t = true ∧ i ∈ ((cfg7.win 4).blk t).view.set := by
  have hi0 : (i 0).val < 100000 := (i 0).isLt
  have hi1 : (i 1).val < 16 := (i 1).isLt
  have hN : grid7.N = 10 := N_7
  have ht : (i 0).val / 10000 < cfg7.N := by show (i 0).val / 10000 < grid7.N; rw [hN]; omega
  obtain ⟨-, -, -, -, -, -, -, -, e40, e41⟩ := idx_facts ⟨(i 0).val / 10000, ht⟩
  refine ⟨⟨(i 0).val / 10000, ht⟩, flush7_4 _, ?_⟩
  rw [mem_blk]
  intro a
  match a with
  | ⟨0, _⟩ =>
    show win7_4.index ⟨(i 0).val / 10000, ht⟩ (0 : Fin 2) * 10000 ≤ (i 0).val ∧ (i 0).val < win7_4.index ⟨(i 0).val / 10000, ht⟩ (0 : Fin 2) * 10000 + 10000
    rw [e40]; show (i 0).val / 10000 * 10000 ≤ (i 0).val ∧ (i 0).val < (i 0).val / 10000 * 10000 + 10000; omega
  | ⟨1, _⟩ =>
    show win7_4.index ⟨(i 0).val / 10000, ht⟩ (1 : Fin 2) * 16 ≤ (i 1).val ∧ (i 1).val < win7_4.index ⟨(i 0).val / 10000, ht⟩ (1 : Fin 2) * 16 + 16
    rw [e41]; omega

/-- When the region ends its output array holds `arrived + normaliser² · product + bias`, row by row. -/
theorem final7 : (dat7 (F := Ideal) V c).arrAt 4 cfg7.N
    = addRow (M := 100000) (N := 16) (selfLoop (V c main_v49) (V c main_v9_1) (V c main_v38)) (rowVec (N := 16) (V c main_v50)) :=
  (dat7 (F := Ideal) V c).arrAt_eq_of_cover 4 _ (fun t _ => flushed_eq V c t) (cover)

end Cert.KernelIdeal.Region7

end
-- ==== Proof.Fold2.lean ====
import proofs.«170494_j3813930959125_2_alg».proof.Proof.GenP.KernelIdeal.Frame
import proofs.«170494_j3813930959125_2_alg».proof.Proof.Stages
import proofs.«170494_j3813930959125_2_alg».proof.Proof.Walks
import proofs.«170494_j3813930959125_2_alg».proof.Proof.Fold1
import proofs.«170494_j3813930959125_2_alg».proof.Proof.Region2
import proofs.«170494_j3813930959125_2_alg».proof.Proof.Region3
import proofs.«170494_j3813930959125_2_alg».proof.Proof.Region4
import proofs.«170494_j3813930959125_2_alg».proof.Proof.Region5
import proofs.«170494_j3813930959125_2_alg».proof.Proof.Region6
import proofs.«170494_j3813930959125_2_alg».proof.Proof.Region7
import Idealize.ShloMosaic.Lib.StableHlo.Run
import Idealize.ShloMosaic.Lib.Pipeline.Value

/-!
# The kernel's value, second part: the two layers

Both layers run the same five segments on the normalisers and edge weights of the first part: a region multiplies every
node row by the layer's weight matrix; the host reads that product at every edge's source; a region forms, edge by
edge, source normaliser · edge weight · target normaliser · source row; the host adds these up at the targets; a
region adds the node's own row weighted by the squared normaliser and the bias (the first layer keeps the positive
part). Each statement names what one buffer holds at one segment boundary as a function of the arguments; the last one
says the result array holds the whole network `net` of the arguments.
-/

set_option maxRecDepth 16384

noncomputable section

namespace Cert.KernelIdeal.Fold

open Idealize.ShloMosaic Idealize.ShloMosaic.TcCoe Idealize.ShloMosaic.ValueIdx Idealize.ShloMosaic.StableHlo Idealize.SL.Sem
open Idealize.ShloMosaic.Pipeline (Dat Cfg Window)
open Cert.KernelIdeal Cert.KernelIdeal.Gen Cert.KernelIdeal.GenP Cert.KernelIdeal.Walks Cert.Gcn Cert.Layers Cert.RowTile

variable (m : (ℓ : Loc nD τ sig) → Buf (Elt Ideal) ℓ) (ρ : Dev nD → PrngReg) (c : Dev nD)

/-- The normaliser at every edge's source and target, and its square at every node. -/
def dS : Mat 3200000 16 := srcOf (a1 m c) (dinv (deg m c))
def dD : Mat 3200000 16 := dstOf (a1 m c) (dinv (deg m c))
def dSq : Mat 100000 16 := dinvSq (deg m c)
/-- What a layer sends along the edges, from its product `h`. -/
def msgOf (h : Mat 100000 16) : Mat 3200000 16 := along4 (dS m c) (ew m c) (dD m c) (srcOf (a1 m c) h)
/-- What a layer adds up at every node, own row included, before the bias. -/
def sumOf (h : Mat 100000 16) : Mat 100000 16 := selfLoop (collect (a1 m c) (msgOf m c h)) (dSq m c) h
/-- The first layer's product and output, the second layer's product. -/
def h1 : Mat 100000 16 := rowsTimes (a0 m c) (a5 m c)
def o1 : Mat 100000 16 := reluRow (sumOf m c (h1 m c)) (a6 m c)
def h2 : Mat 100000 16 := rowsTimes (o1 m c) (a7 m c)

/-! ## The normalisers along the edges -/

theorem W5_v16 : W5 m ρ c (Proc.devRef .tc main_v16) = dS m c := by
  have e : W5 m ρ c (Proc.devRef .tc main_v16)
      = Host.gather gather_S100000x16_S3200000x1_S3200000x16_1_0_n_n_0_1_116 (W4 m ρ c (Proc.devRef .tc main_v9_0)) (wrapCol (W4 m ρ c (Proc.devRef .tc main_v1))) := by
    show StableHlo.after hostOps2 (W4 m ρ c) (Proc.devRef .tc main_v16) = _
    after_results_simp <;> rfl
  rw [e, W4_v9_0 m ρ c, keep_v1_4_1 m ρ c, W1_v1 m ρ c]
  rfl
theorem W5_v23 : W5 m ρ c (Proc.devRef .tc main_v23) = dD m c := by
  have e : W5 m ρ c (Proc.devRef .tc main_v23)
      = Host.gather gather_S100000x16_S3200000x1_S3200000x16_1_0_n_n_0_1_116 (W4 m ρ c (Proc.devRef .tc main_v9_0)) (wrapCol (W4 m ρ c (Proc.devRef .tc main_v3))) := by
    show StableHlo.after hostOps2 (W4 m ρ c) (Proc.devRef .tc main_v23) = _
    after_results_simp <;> rfl
  rw [e, W4_v9_0 m ρ c, keep_v3_4_2 m ρ c, keep_v3_2_1 m ρ c, W1_v3 m ρ c]
  rfl
theorem W7_v16 : W7 m ρ c (Proc.devRef .tc main_v16) = dS m c := (keep_v16_7_5 m ρ c).trans (W5_v16 m ρ c)
theorem W7_v23 : W7 m ρ c (Proc.devRef .tc main_v23) = dD m c := (keep_v23_7_5 m ρ c).trans (W5_v23 m ρ c)
theorem W7_v5 : W7 m ρ c (Proc.devRef .tc main_v5) = ew m c := (keep_v5_7_2 m ρ c).trans (W2_v5 m ρ c)
theorem W12_v16 : W12 m ρ c (Proc.devRef .tc main_v16) = dS m c := (keep_v16_12_7 m ρ c).trans (W7_v16 m ρ c)
theorem W12_v23 : W12 m ρ c (Proc.devRef .tc main_v23) = dD m c := (keep_v23_12_7 m ρ c).trans (W7_v23 m ρ c)
theorem W12_v5 : W12 m ρ c (Proc.devRef .tc main_v5) = ew m c := (keep_v5_12_7 m ρ c).trans (W7_v5 m ρ c)
theorem W9_v9_1 : W9 m ρ c (Proc.devRef .tc main_v9_1) = dSq m c := (keep_v9_1_9_4 m ρ c).trans (W4_v9_1 m ρ c)
theorem W14_v9_1 : W14 m ρ c (Proc.devRef .tc main_v9_1) = dSq m c := (keep_v9_1_14_9 m ρ c).trans (W9_v9_1 m ρ c)
theorem W4_v1 : W4 m ρ c (Proc.devRef .tc main_v1) = srcRaw (a1 m c) := (keep_v1_4_1 m ρ c).trans (W1_v1 m ρ c)
theorem W6_v1 : W6 m ρ c (Proc.devRef .tc main_v1) = srcRaw (a1 m c) := (keep_v1_6_4 m ρ c).trans (W4_v1 m ρ c)
theorem W11_v1 : W11 m ρ c (Proc.devRef .tc main_v1) = srcRaw (a1 m c) := (keep_v1_11_6 m ρ c).trans (W6_v1 m ρ c)
theorem W4_v3 : W4 m ρ c (Proc.devRef .tc main_v3) = dstRaw (a1 m c) := (keep_v3_4_2 m ρ c).trans ((keep_v3_2_1 m ρ c).trans (W1_v3 m ρ c))
theorem W8_v3 : W8 m ρ c (Proc.devRef .tc main_v3) = dstRaw (a1 m c) := (keep_v3_8_4 m ρ c).trans (W4_v3 m ρ c)
theorem W13_v3 : W13 m ρ c (Proc.devRef .tc main_v3) = dstRaw (a1 m c) := (keep_v3_13_8 m ρ c).trans (W8_v3 m ρ c)

/-! ## The first layer -/

theorem W5_arg0 : W5 m ρ c (Proc.devRef .tc main_arg0) = a0 m c := (keep_arg0_5_0 m ρ c).trans rfl
theorem W5_arg5 : W5 m ρ c (Proc.devRef .tc main_arg5) = a5 m c := (keep_arg5_5_0 m ρ c).trans rfl

theorem W6_v24 : W6 m ρ c (Proc.devRef .tc main_v24) = h1 m c := by
  refine (W6_arr m ρ c 2).trans ((Region2.final2 (V5 m ρ) c).trans ?_)
  show rowsTimes (M := 100000) (K := 128) (N := 16) (W5 m ρ c (Proc.devRef .tc main_arg0)) (W5 m ρ c (Proc.devRef .tc main_arg5)) = _
  rw [W5_arg0 m ρ c, W5_arg5 m ρ c]
  rfl

theorem W7_v31 : W7 m ρ c (Proc.devRef .tc main_v31) = srcOf (a1 m c) (h1 m c) := by
  have e : W7 m ρ c (Proc.devRef .tc main_v31)
      = Host.gather gather_S100000x16_S3200000x1_S3200000x16_1_0_n_n_0_1_116 (W6 m ρ c (Proc.devRef .tc main_v24)) (wrapCol (W6 m ρ c (Proc.devRef .tc main_v1))) := by
    show StableHlo.after hostOps3 (W6 m ρ c) (Proc.devRef .tc main_v31) = _
    after_results_simp <;> rfl
  rw [e, W6_v24 m ρ c, W6_v1 m ρ c]
  rfl

theorem W8_v32 : W8 m ρ c (Proc.devRef .tc main_v32) = msgOf m c (h1 m c) := by
  refine (W8_arr m ρ c 4).trans ((Region3.final3 (V7 m ρ) c).trans ?_)
  show along4 (n := 3200000) (c := 16) (W7 m ρ c (Proc.devRef .tc main_v16)) (W7 m ρ c (Proc.devRef .tc main_v5)) (W7 m ρ c (Proc.devRef .tc main_v23)) (W7 m ρ c (Proc.devRef .tc main_v31)) = _
  rw [W7_v16 m ρ c, W7_v5 m ρ c, W7_v23 m ρ c, W7_v31 m ρ c]
  rfl

theorem W9_v35 : W9 m ρ c (Proc.devRef .tc main_v35) = collect (a1 m c) (msgOf m c (h1 m c)) := by
  have e : W9 m ρ c (Proc.devRef .tc main_v35)
      = Host.scatterAdd (F := Ideal) (φ := .f32) scatter_S100000x16_S3200000x1_S3200000x16_1_0_0_1 zerosN (rawCol (W8 m ρ c (Proc.devRef .tc main_v3))) (W8 m ρ c (Proc.devRef .tc main_v32)) := by
    show StableHlo.after hostOps4 (W8 m ρ c) (Proc.devRef .tc main_v35) = _
    after_results_simp <;> rfl
  rw [e, W8_v3 m ρ c, W8_v32 m ρ c]
  rfl
theorem W9_v36 : W9 m ρ c (Proc.devRef .tc main_v36) = shapeCast S1x16 (a6 m c) shapeCasts_S16_S1x16 := by
  have e : W9 m ρ c (Proc.devRef .tc main_v36)
      = shapeCast S1x16 (W8 m ρ c (Proc.devRef .tc main_arg6)) shapeCasts_S16_S1x16 := by
    show StableHlo.after hostOps4 (W8 m ρ c) (Proc.devRef .tc main_v36) = _
    after_results_simp <;> rfl
  rw [e, keep_arg6_8_0 m ρ c]
theorem W9_v24 : W9 m ρ c (Proc.devRef .tc main_v24) = h1 m c := (keep_v24_9_6 m ρ c).trans (W6_v24 m ρ c)

theorem W10_v37 : W10 m ρ c (Proc.devRef .tc main_v37) = o1 m c := by
  refine (W10_arr m ρ c 4).trans ((Region4.final4 (V9 m ρ) c).trans ?_)
  show reluRow (M := 100000) (N := 16) (selfLoop (W9 m ρ c (Proc.devRef .tc main_v35)) (W9 m ρ c (Proc.devRef .tc main_v9_1)) (W9 m ρ c (Proc.devRef .tc main_v24))) (rowVec (N := 16) (W9 m ρ c (Proc.devRef .tc main_v36))) = _
  rw [W9_v35 m ρ c, W9_v9_1 m ρ c, W9_v24 m ρ c, W9_v36 m ρ c, rowVec_shapeCast]
  rfl

/-! ## The second layer -/

theorem W10_arg7 : W10 m ρ c (Proc.devRef .tc main_arg7) = a7 m c := (keep_arg7_10_0 m ρ c).trans rfl

theorem W11_v38 : W11 m ρ c (Proc.devRef .tc main_v38) = h2 m c := by
  refine (W11_arr m ρ c 2).trans ((Region5.final5 (V10 m ρ) c).trans ?_)
  show rowsTimes (M := 100000) (K := 16) (N := 16) (W10 m ρ c (Proc.devRef .tc main_v37)) (W10 m ρ c (Proc.devRef .tc main_arg7)) = _
  rw [W10_v37 m ρ c, W10_arg7 m ρ c]
  rfl

theorem W12_v45 : W12 m ρ c (Proc.devRef .tc main_v45) = srcOf (a1 m c) (h2 m c) := by
  have e : W12 m ρ c (Proc.devRef .tc main_v45)
      = Host.gather gather_S100000x16_S3200000x1_S3200000x16_1_0_n_n_0_1_116 (W11 m ρ c (Proc.devRef .tc main_v38)) (wrapCol (W11 m ρ c (Proc.devRef .tc main_v1))) := by
    show StableHlo.after hostOps6 (W11 m ρ c) (Proc.devRef .tc main_v45) = _
    after_results_simp <;> rfl
  rw [e, W11_v38 m ρ c, W11_v1 m ρ c]
  rfl

theorem W13_v46 : W13 m ρ c (Proc.devRef .tc main_v46) = msgOf m c (h2 m c) := by
  refine (W13_arr m ρ c 4).trans ((Region6.final6 (V12 m ρ) c).trans ?_)
  show along4 (n := 3200000) (c := 16) (W12 m ρ c (Proc.devRef .tc main_v16)) (W12 m ρ c (Proc.devRef .tc main_v5)) (W12 m ρ c (Proc.devRef .tc main_v23)) (W12 m ρ c (Proc.devRef .tc main_v45)) = _
  rw [W12_v16 m ρ c, W12_v5 m ρ c, W12_v23 m ρ c, W12_v45 m ρ c]
  rfl

theorem W14_v49 : W14 m ρ c (Proc.devRef .tc main_v49) = collect (a1 m c) (msgOf m c (h2 m c)) := by
  have e : W14 m ρ c (Proc.devRef .tc main_v49)
      = Host.scatterAdd (F := Ideal) (φ := .f32) scatter_S100000x16_S3200000x1_S3200000x16_1_0_0_1 zerosN (rawCol (W13 m ρ c (Proc.devRef .tc main_v3))) (W13 m ρ c (Proc.devRef .tc main_v46)) := by
    show StableHlo.after hostOps7 (W13 m ρ c) (Proc.devRef .tc main_v49) = _
    after_results_simp <;> rfl
  rw [e, W13_v3 m ρ c, W13_v46 m ρ c]
  rfl
theorem W14_v50 : W14 m ρ c (Proc.devRef .tc main_v50) = shapeCast S1x16 (a8 m c) shapeCasts_S16_S1x16 := by
  have e : W14 m ρ c (Proc.devRef .tc main_v50)
      = shapeCast S1x16 (W13 m ρ c (Proc.devRef .tc main_arg8)) shapeCasts_S16_S1x16 := by
    show StableHlo.after hostOps7 (W13 m ρ c) (Proc.devRef .tc main_v50) = _
    after_results_simp <;> rfl
  rw [e, keep_arg8_13_0 m ρ c]
theorem W14_v38 : W14 m ρ c (Proc.devRef .tc main_v38) = h2 m c := (keep_v38_14_11 m ρ c).trans (W11_v38 m ρ c)

theorem W15_v51 : W15 m ρ c (Proc.devRef .tc main_v51) = addRow (sumOf m c (h2 m c)) (a8 m c) := by
  refine (W15_arr m ρ c 4).trans ((Region7.final7 (V14 m ρ) c).trans ?_)
  show addRow (M := 100000) (N := 16) (selfLoop (W14 m ρ c (Proc.devRef .tc main_v49)) (W14 m ρ c (Proc.devRef .tc main_v9_1)) (W14 m ρ c (Proc.devRef .tc main_v38))) (rowVec (N := 16) (W14 m ρ c (Proc.devRef .tc main_v50))) = _
  rw [W14_v49 m ρ c, W14_v9_1 m ρ c, W14_v38 m ρ c, W14_v50 m ρ c, rowVec_shapeCast]
  rfl

/-- The result array holds the network of the arguments, the moves along edges being the printed program's. -/
theorem kernel_value : W15 m ρ c (Proc.devRef .tc main_v51)
    = net (srcOf (a1 m c)) (dstOf (a1 m c)) (collect (a1 m c)) (a0 m c) (a2 m c) (a3 m c) (a4 m c) (a5 m c) (a6 m c) (a7 m c) (a8 m c) :=
  (W15_v51 m ρ c).trans rfl

end Cert.KernelIdeal.Fold

end
-- ==== Proof.LibLayoutRead.lean ====
import Idealize.ShloMosaic.Lib.ValueIdx
import Idealize.ShloMosaic.Lib.Pipeline.Value
import Idealize.ShloMosaic.PureOps.Ideal.Laws

/-!
# Small re-layings read at an index, and the word of 1.0

A scalar splat to any shape reads the scalar everywhere; a vector `[a]` stood up as a column `[a, 1]` reads the vector's
entry of the row; a column `[a, 1]` repeated along `b` columns reads the column's entry of the row; a vector `[b]` stood
up as a one-row matrix `[1, b]`, by a broadcast or by a shape cast, reads the vector's entry of the column. The extents
are arbitrary. The 32-bit pattern `0x3F800000` denotes the real number 1.
-/

namespace Cert.LibLayoutRead

open Idealize.ShloMosaic Idealize.ShloMosaic.ValueIdx

/-- A scalar broadcast to any shape reads the scalar at every index. -/
theorem splat_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- A vector stood up as a column reads, in row `i`, the vector's entry `i`. -/
theorem column_apply {α : Type} {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun d => match d with
    | ⟨0, _⟩ => by
      show i.val = if a = 1 then 0 else i.val
      split
      · next h1 => have := i.isLt; omega
      · rfl)

/-- A column repeated along the columns reads, at `(i, c)`, the column's entry of row `i`. -/
theorem alongCols_apply {α : Type} {a b : ℕ} (h : (⟨2, ![a, 1]⟩ : Shape).BroadcastsInDim ⟨2, ![a, b]⟩ ![0, 1])
    (x : (⟨2, ![a, 1]⟩ : Shape).Idx → α) (i : Fin a) (c : Fin b) :
    broadcastInDim ⟨2, ![a, b]⟩ ![0, 1] h x (ix2 i c) = x (ix2 i (0 : Fin 1)) :=
  broadcastInDim_apply _ h x (ix2 i c) (ix2 i (0 : Fin 1)) (fun d => match d with
    | ⟨0, _⟩ => by
      show i.val = if a = 1 then 0 else i.val
      split
      · next h1 => have := i.isLt; omega
      · rfl
    | ⟨1, _⟩ => by
      show (0 : ℕ) = if (1 : ℕ) = 1 then 0 else c.val
      rw [if_pos rfl])

/-- A vector stood up as a one-row matrix by a broadcast reads, in column `k`, the vector's entry `k`. -/
theorem row_apply {α : Type} {b : ℕ} (h : (⟨1, ![b]⟩ : Shape).BroadcastsInDim ⟨2, ![1, b]⟩ ![1])
    (x : (⟨1, ![b]⟩ : Shape).Idx → α) (u : Fin 1) (k : Fin b) :
    broadcastInDim ⟨2, ![1, b]⟩ ![1] h x (ix2 u k) = x (ix1 k) :=
  broadcastInDim_apply _ h x (ix2 u k) (ix1 k) (fun d => match d with
    | ⟨0, _⟩ => by
      show k.val = if b = 1 then 0 else k.val
      split
      · next h1 => have := k.isLt; omega
      · rfl)

/-- A vector re-laid as a one-row matrix by a shape cast reads, in column `k`, the vector's entry `k`. -/
theorem castRow_apply {α : Type} {b : ℕ} (h : (⟨1, ![b]⟩ : Shape).ShapeCasts ⟨2, ![1, b]⟩)
    (x : (⟨1, ![b]⟩ : Shape).Idx → α) (u : Fin 1) (k : Fin b) :
    shapeCast ⟨2, ![1, b]⟩ x h (ix2 u k) = x (ix1 k) :=
  shapeCast_apply x h (ix2 u k) (ix1 k) (by
    rewrite [Shape.rowMajor_val_one, Shape.rowMajor_val_two]
    show k.val = u.val * b + k.val
    have hu : u.val = 0 := by have := u.isLt; omega
    rw [hu, Nat.zero_mul, Nat.zero_add])

/-- The pattern `0x3F800000` is the real number 1. -/
theorem one_word : Ideal.ofBits .f32 0x3F800000#32 = 1 := by
  simp [Ideal.ofBits, Ideal.ieee, -EReal.coe_mul]; norm_num

end Cert.LibLayoutRead
-- ==== Proof.RefValue.lean ====
import proofs.«170494_j3813930959125_2_alg».proof.Proof.Gen.ReferenceIdeal.Read
import proofs.«170494_j3813930959125_2_alg».proof.Proof.Stages
import proofs.«170494_j3813930959125_2_alg».proof.Proof.LibLayoutRead

/-!
# The reference program is the two-layer graph convolution

Over the extended reals the reference computes, operation by operation: the edge weights `ew = edge_attr · We + be`; the
degree, by adding the edge weights up at every edge's target; the normaliser `1/sqrt(|deg + 1| + eps)` where `deg + 1 > 0`
and `0` elsewhere, and its square; then twice a layer — every node row times a weight matrix, the product
`normaliser(source) · ew · normaliser(target) · row(source)` along every edge, added up at the edge's target, plus the
node's own row weighted by the squared normaliser, plus a bias row (and the positive part, in the first layer).

The three moves along edges — reading a node array at every edge's source, at every edge's target, and adding an edge
array up at every edge's target — are the reference's own gather and scatter-add over index columns computed from the
edge index alone. They are named here (`srcOf`, `dstOf`, `collect`) and never opened: the same index column is computed
afresh before each use, and the copies are equal term by term. Each stage of the reference is then one of the named dense
or entrywise steps of its operands, and the last stage is the whole network `net`.
-/

noncomputable section

namespace Cert.ReferenceIdeal.RefValue

open Cert.ReferenceIdeal Cert.ReferenceIdeal.Gen Cert.ReferenceIdeal.Read Cert.Gcn Cert.Layers Cert.RowTile Idealize.ShloMosaic Idealize.ShloMosaic.ValueIdx

/-- A node array read at every edge's source. -/
def srcOf (x1 : (⟨S2x3200000, .i32⟩ : BufTy).Contents (Elt Ideal)) (a : Mat 100000 16) : Mat 3200000 16 :=
  Host.gather gather_S100000x16_S3200000x1_S3200000x16_1_0_n_n_0_1_116 a (val_main_v25 (F := Ideal) x1)

/-- A node array read at every edge's target. -/
def dstOf (x1 : (⟨S2x3200000, .i32⟩ : BufTy).Contents (Elt Ideal)) (a : Mat 100000 16) : Mat 3200000 16 :=
  Host.gather gather_S100000x16_S3200000x1_S3200000x16_1_0_n_n_0_1_116 a (val_main_v32 (F := Ideal) x1)

/-- An edge array added up at every edge's target, from zero. -/
def collect (x1 : (⟨S2x3200000, .i32⟩ : BufTy).Contents (Elt Ideal)) (u : Mat 3200000 16) : Mat 100000 16 :=
  Host.scatterAdd (F := Ideal) (φ := .f32) scatter_S100000x16_S3200000x1_S3200000x16_1_0_0_1 (val_main_v8 (F := Ideal)) (val_main_v9 (F := Ideal) x1) u

variable (x0 : (⟨S100000x128, .f32⟩ : BufTy).Contents (Elt Ideal)) (x1 : (⟨S2x3200000, .i32⟩ : BufTy).Contents (Elt Ideal))
  (x2 : (⟨S3200000x16, .f32⟩ : BufTy).Contents (Elt Ideal)) (x3 : (⟨S16x16, .f32⟩ : BufTy).Contents (Elt Ideal)) (x4 : (⟨S16, .f32⟩ : BufTy).Contents (Elt Ideal))
  (x5 : (⟨S128x16, .f32⟩ : BufTy).Contents (Elt Ideal)) (x6 : (⟨S16, .f32⟩ : BufTy).Contents (Elt Ideal)) (x7 : (⟨S16x16, .f32⟩ : BufTy).Contents (Elt Ideal)) (x8 : (⟨S16, .f32⟩ : BufTy).Contents (Elt Ideal))

/-! ## The index columns and the zero array, computed afresh before each use, are the same terms -/

theorem v43_eq : val_main_v43 (F := Ideal) x1 = val_main_v25 (F := Ideal) x1 := rfl
theorem v63_eq : val_main_v63 (F := Ideal) x1 = val_main_v25 (F := Ideal) x1 := rfl
theorem v47_eq : val_main_v47 (F := Ideal) x1 = val_main_v9 (F := Ideal) x1 := rfl
theorem v67_eq : val_main_v67 (F := Ideal) x1 = val_main_v9 (F := Ideal) x1 := rfl
theorem v46_eq : val_main_v46 (F := Ideal) = val_main_v8 (F := Ideal) := rfl
theorem v66_eq : val_main_v66 (F := Ideal) = val_main_v8 (F := Ideal) := rfl

/-! ## The edge weights, the degree, the normaliser -/

/-- The edge weights: every edge-attribute row times `We`, plus the bias row `be`. -/
theorem v7_eq : val_main_v7 (F := Ideal) x2 x3 x4
    = addRow (M := 3200000) (N := 16) (rowsTimes (M := 3200000) (K := 16) (N := 16) x2 x3) x4 := by
  have h4 : val_main_v4 (F := Ideal) x2 x3 = rowsTimes (M := 3200000) (K := 16) (N := 16) x2 x3 :=
    Cert.Layers.dotGeneral_eq dot_S3200000x16_S16x16_S3200000x16_1_0_0_1_n_n ⟨rfl, rfl, rfl, rfl, rfl, rfl⟩ none .single x2 x3
  unfold val_main_v7
  rw [h4]
  exact Cert.Layers.addf_rows_of_vector _ x4 bcast_S16_S1x16_1 bcast_S1x16_S3200000x16_0_1

/-- The degree: the edge weights added up at every edge's target. -/
theorem v10_eq : val_main_v10 (F := Ideal) x1 x2 x3 x4 = collect x1 (val_main_v7 (F := Ideal) x2 x3 x4) := rfl

/-- The normaliser of every node, channel by channel. -/
theorem v19_eq : val_main_v19 (F := Ideal) x1 x2 x3 x4
    = dinv (n := 100000) (c := 16) (val_main_v10 (F := Ideal) x1 x2 x3 x4) := by
  funext i
  rw [val_main_v19_apply, val_main_v14_apply, val_main_v18_apply, val_main_v17_apply, val_main_v15_apply,
    val_main_v12_apply, val_main_v11_apply, val_main_v13_apply, val_main_v16_apply, val_main_call0_v1_apply]
  rfl

/-- Its square. -/
theorem v34_eq : val_main_v34 (F := Ideal) x1 x2 x3 x4
    = dinvSq (n := 100000) (c := 16) (val_main_v10 (F := Ideal) x1 x2 x3 x4) := by
  funext i
  rw [val_main_v34_apply, v19_eq]
  rfl

/-- The normaliser read at every edge's source and at every edge's target. -/
theorem v26_eq : val_main_v26 (F := Ideal) x1 x2 x3 x4 = srcOf x1 (val_main_v19 (F := Ideal) x1 x2 x3 x4) := rfl
theorem v33_eq : val_main_v33 (F := Ideal) x1 x2 x3 x4 = dstOf x1 (val_main_v19 (F := Ideal) x1 x2 x3 x4) := rfl

/-! ## The first layer -/

/-- Every node row times `W1`. -/
theorem v35_eq : val_main_v35 (F := Ideal) x0 x5 = rowsTimes (M := 100000) (K := 128) (N := 16) x0 x5 :=
  Cert.Layers.dotGeneral_eq dot_S100000x128_S128x16_S100000x16_1_0_0_1_n_n ⟨rfl, rfl, rfl, rfl, rfl, rfl⟩ none .single x0 x5

/-- Those rows read at every edge's source. -/
theorem v44_eq : val_main_v44 (F := Ideal) x0 x1 x5 = srcOf x1 (val_main_v35 (F := Ideal) x0 x5) := by
  unfold val_main_v44
  rw [v43_eq]
  rfl

/-- What travels along every edge. -/
theorem v45_eq : val_main_v45 (F := Ideal) x0 x1 x2 x3 x4 x5
    = along4 (n := 3200000) (c := 16) (val_main_v26 (F := Ideal) x1 x2 x3 x4) (val_main_v7 (F := Ideal) x2 x3 x4)
        (val_main_v33 (F := Ideal) x1 x2 x3 x4) (val_main_v44 (F := Ideal) x0 x1 x5) := by
  funext i
  rw [val_main_v45_apply, val_main_v37_apply, val_main_v36_apply]
  rfl

/-- Added up at every edge's target. -/
theorem v48_eq : val_main_v48 (F := Ideal) x0 x1 x2 x3 x4 x5 = collect x1 (val_main_v45 (F := Ideal) x0 x1 x2 x3 x4 x5) := by
  unfold val_main_v48
  rw [v46_eq, v47_eq]
  rfl

/-- Plus the node's own row weighted by the squared normaliser. -/
theorem v50_eq : val_main_v50 (F := Ideal) x0 x1 x2 x3 x4 x5
    = selfLoop (n := 100000) (c := 16) (val_main_v48 (F := Ideal) x0 x1 x2 x3 x4 x5) (val_main_v34 (F := Ideal) x1 x2 x3 x4)
        (val_main_v35 (F := Ideal) x0 x5) := by
  funext i
  rw [val_main_v50_apply, val_main_v49_apply]
  rfl

/-- Plus the bias row `b1`, and the positive part. -/
theorem v54_eq : val_main_v54 (F := Ideal) x0 x1 x2 x3 x4 x5 x6
    = reluRow (M := 100000) (N := 16) (val_main_v50 (F := Ideal) x0 x1 x2 x3 x4 x5) x6 :=
  Cert.Layers.maximumf_addf_rows_of_vector (val_main_v50 (F := Ideal) x0 x1 x2 x3 x4 x5) x6 bcast_S16_S1x16_1
    bcast_S1x16_S100000x16_0_1 (val_main_call1_v0 (F := Ideal))
    (fun i => (val_main_call1_v0_apply (F := Ideal) i).trans Ideal.ofBits_zero_f32)

/-! ## The second layer -/

/-- Every row of the first layer's result times `W2`. -/
theorem v55_eq : val_main_v55 (F := Ideal) x0 x1 x2 x3 x4 x5 x6 x7
    = rowsTimes (M := 100000) (K := 16) (N := 16) (val_main_v54 (F := Ideal) x0 x1 x2 x3 x4 x5 x6) x7 :=
  Cert.Layers.dotGeneral_eq dot_S100000x16_S16x16_S100000x16_1_0_0_1_n_n ⟨rfl, rfl, rfl, rfl, rfl, rfl⟩ none .single _ x7

/-- Those rows read at every edge's source. -/
theorem v64_eq : val_main_v64 (F := Ideal) x0 x1 x2 x3 x4 x5 x6 x7
    = srcOf x1 (val_main_v55 (F := Ideal) x0 x1 x2 x3 x4 x5 x6 x7) := by
  unfold val_main_v64
  rw [v63_eq]
  rfl

/-- What travels along every edge. -/
theorem v65_eq : val_main_v65 (F := Ideal) x0 x1 x2 x3 x4 x5 x6 x7
    = along4 (n := 3200000) (c := 16) (val_main_v26 (F := Ideal) x1 x2 x3 x4) (val_main_v7 (F := Ideal) x2 x3 x4)
        (val_main_v33 (F := Ideal) x1 x2 x3 x4) (val_main_v64 (F := Ideal) x0 x1 x2 x3 x4 x5 x6 x7) := by
  funext i
  rw [val_main_v65_apply, val_main_v57_apply, val_main_v56_apply]
  rfl

/-- Added up at every edge's target. -/
theorem v68_eq : val_main_v68 (F := Ideal) x0 x1 x2 x3 x4 x5 x6 x7
    = collect x1 (val_main_v65 (F := Ideal) x0 x1 x2 x3 x4 x5 x6 x7) := by
  unfold val_main_v68
  rw [v66_eq, v67_eq]
  rfl

/-- Plus the node's own row weighted by the squared normaliser. -/
theorem v70_eq : val_main_v70 (F := Ideal) x0 x1 x2 x3 x4 x5 x6 x7
    = selfLoop (n := 100000) (c := 16) (val_main_v68 (F := Ideal) x0 x1 x2 x3 x4 x5 x6 x7) (val_main_v34 (F := Ideal) x1 x2 x3 x4)
        (val_main_v55 (F := Ideal) x0 x1 x2 x3 x4 x5 x6 x7) := by
  funext i
  rw [val_main_v70_apply, val_main_v69_apply]
  rfl

/-- Plus the bias row `b2`. -/
theorem v73_eq : val_main_v73 (F := Ideal) x0 x1 x2 x3 x4 x5 x6 x7 x8
    = addRow (M := 100000) (N := 16) (val_main_v70 (F := Ideal) x0 x1 x2 x3 x4 x5 x6 x7) x8 := by
  unfold val_main_v73
  exact Cert.Layers.addf_rows_of_vector _ x8 bcast_S16_S1x16_1 bcast_S1x16_S100000x16_0_1

/-! ## The whole network -/

/-- THE REFERENCE'S RESULT is the two-layer graph convolution of its arguments, the moves along edges being its own
    gathers and scatter-adds. -/
theorem ref_eq : val_main_v73 (F := Ideal) x0 x1 x2 x3 x4 x5 x6 x7 x8
    = net (E := 3200000) (N := 100000) (C := 16) (K := 128) (srcOf x1) (dstOf x1) (collect x1) x0 x2 x3 x4 x5 x6 x7 x8 := by
  rw [v73_eq, v70_eq, v68_eq, v65_eq, v64_eq, v55_eq, v54_eq, v50_eq, v48_eq, v45_eq, v44_eq, v35_eq, v34_eq, v33_eq,
    v26_eq, v19_eq, v10_eq, v7_eq]
  unfold net
  rfl

end Cert.ReferenceIdeal.RefValue

end
-- ==== Proof.lean ====
/- The proof of `Cert.Claim` for a two-layer graph convolution with per-channel edge weights, computed by eight
   pallas_call regions among host gathers and scatter-adds, against its jnp reference.

   Both programs compute, over the extended reals, the same function of their arguments: the edge weights
   `edge_attr · We + be`; their sums at the edges' targets plus one (the degrees); `1/sqrt(|deg| + eps)` where the degree is
   positive and zero elsewhere; and twice a layer `rows · W`, then at every node the sum over arriving edges of
   source normaliser · edge weight · target normaliser · source row, plus the node's own row times the squared normaliser,
   plus the bias (positive part kept after the first layer). The two sides group every product and sum the same way and
   perform the gathers and scatter-adds by the same operations, so no law of arithmetic is needed and finiteness of the
   inputs is never used: the kernel's regions cut the rows of each array into tiles, and an entry of each stage depends
   only on entries of its own row of the operands (Proof/Region0 … Region7: each region's output array as one
   array-sized function of its operands; Proof/Fold1, Fold2: the result buffer read back through the program's segments;
   Proof/RefValue: the reference's operations, stage by stage, as the same function `Cert.Gcn.net`).
   `preserves` has no conjunct: the idealization rewrote no operation. -/
import proofs.«170494_j3813930959125_2_alg».proof.Defs
import proofs.«170494_j3813930959125_2_alg».proof.Proof.Gen.Kernel
import proofs.«170494_j3813930959125_2_alg».proof.Proof.Gen.KernelIdeal
import proofs.«170494_j3813930959125_2_alg».proof.Proof.Gen.ReferenceIdeal
import proofs.«170494_j3813930959125_2_alg».proof.Proof.Gen.Pre_finite_inputs
import proofs.«170494_j3813930959125_2_alg».proof.Proof.GenP.Kernel.Frame
import proofs.«170494_j3813930959125_2_alg».proof.Proof.GenP.KernelIdeal.Frame
import proofs.«170494_j3813930959125_2_alg».proof.Proof.Gen.ReferenceIdeal.Run
import proofs.«170494_j3813930959125_2_alg».proof.Proof.Gen.ReferenceIdeal.Read
import proofs.«170494_j3813930959125_2_alg».proof.Proof.KernelRun
import proofs.«170494_j3813930959125_2_alg».proof.Proof.Fold2
import proofs.«170494_j3813930959125_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.GenP.frame m ρ
/-- So does the idealized kernel. -/
theorem frame_kernelIdeal : Cert.frame_KernelIdeal := fun m ρ _ => Cert.KernelIdeal.GenP.frame m ρ
/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- From memories that agree on the nine arguments both idealized programs end with the network of those arguments in
    their result arrays: the kernel's result buffer read back through its segments, the reference's composed operations,
    and the moves along edges, which the two programs spell with the same operations. -/
theorem algebraic : Cert.algebraic_KernelIdeal_ReferenceIdeal := by
  intro m ρ m' ρ' _ hagree
  refine ⟨fun c => Cert.KernelIdeal.GenP.W15 m ρ c (Proc.devRef .tc Cert.KernelIdeal.main_v51),
    Cert.KernelIdeal.GcnRun.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  show Cert.ReferenceIdeal.Value.res_main_v73 m' c
      = Cert.KernelIdeal.GenP.W15 m ρ c (Proc.devRef .tc Cert.KernelIdeal.main_v51)
  rw [Cert.ReferenceIdeal.Read.val_main_v73_eq, Cert.ReferenceIdeal.RefValue.ref_eq, Cert.KernelIdeal.Fold.kernel_value,
    h0, h1, h2, h3, h4, h5, h6, h7, h8]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
